-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20x4x1x8x128x128 : Shape := ⟨6, ![20, 4, 1, 8, 128, 128]⟩
abbrev S4x1x8x128x128 : Shape := ⟨5, ![4, 1, 8, 128, 128]⟩
abbrev S_ : Shape := ⟨0, ![]⟩

class Facts : Prop where
  bcast_S_S20x4x1x8x128x128 : S_.BroadcastsInDim S20x4x1x8x128x128 (![] : Fin 0 → Fin S20x4x1x8x128x128.rank)
  reducesTo_S20x4x1x8x128x128_S_d0_1_2_3_4_5 : S20x4x1x8x128x128.ReducesTo [0, 1, 2, 3, 4, 5] S_
  h_S_ : 0 < S_.numel
  bcast_S_S4x1x8x128x128 : S_.BroadcastsInDim S4x1x8x128x128 (![] : Fin 0 → Fin S4x1x8x128x128.rank)
  reducesTo_S4x1x8x128x128_S_d0_1_2_3_4 : S4x1x8x128x128.ReducesTo [0, 1, 2, 3, 4] S_

variable [Facts]

def fn {F : FTy → Type} [FloatOps F] (main_arg0 : FVec F S20x4x1x8x128x128 .f32) (main_arg1 : FVec F S4x1x8x128x128 .f32) : IVec S_ 1 :=
  let main_v0 : FVec F S20x4x1x8x128x128 .f32 := Host.absf main_arg0
  let main_cst : FVec F S_ .f32 := constant S_ .f32 0x7F800000#32
  let main_v1 : FVec F S20x4x1x8x128x128 .f32 := broadcastInDim S20x4x1x8x128x128 ![] bcast_S_S20x4x1x8x128x128 main_cst
  let main_v2 : IVec S20x4x1x8x128x128 1 := cmpf .olt main_v0 main_v1
  let main_c : IVec S_ 1 := constantI S_ 1 1#1
  let main_v3 : IVec S_ 1 := (fun x v => Host.reduce IntOp.andi x v reducesTo_S20x4x1x8x128x128_S_d0_1_2_3_4_5 h_S_) main_v2 main_c
  let main_v4 : FVec F S4x1x8x128x128 .f32 := Host.absf main_arg1
  let main_cst_0 : FVec F S_ .f32 := constant S_ .f32 0x7F800000#32
  let main_v5 : FVec F S4x1x8x128x128 .f32 := broadcastInDim S4x1x8x128x128 ![] bcast_S_S4x1x8x128x128 main_cst_0
  let main_v6 : IVec S4x1x8x128x128 1 := cmpf .olt main_v4 main_v5
  let main_c_1 : IVec S_ 1 := constantI S_ 1 1#1
  let main_v7 : IVec S_ 1 := (fun x v => Host.reduce IntOp.andi x v reducesTo_S4x1x8x128x128_S_d0_1_2_3_4 h_S_) main_v6 main_c_1
  let main_v8 : IVec S_ 1 := andi main_v3 main_v7
  main_v8
-- ==== Kernel.lean ====
abbrev S20x4x1x8x128x128 : Shape := ⟨6, ![20, 4, 1, 8, 128, 128]⟩
abbrev S4x1x8x128x128 : Shape := ⟨5, ![4, 1, 8, 128, 128]⟩
abbrev S20x524288 : Shape := ⟨2, ![20, 524288]⟩
abbrev S1x524288 : Shape := ⟨2, ![1, 524288]⟩
abbrev S2x8x128 : Shape := ⟨3, ![2, 8, 128]⟩
abbrev S20x32768 : Shape := ⟨2, ![20, 32768]⟩
abbrev S1x32768 : Shape := ⟨2, ![1, 32768]⟩
abbrev S1x8x128 : Shape := ⟨3, ![1, 8, 128]⟩
abbrev S8x128 : Shape := ⟨2, ![8, 128]⟩
abbrev S32768 : Shape := ⟨1, ![32768]⟩
abbrev S19x32768 : Shape := ⟨2, ![19, 32768]⟩
abbrev S18x32768 : Shape := ⟨2, ![18, 32768]⟩
abbrev S17x32768 : Shape := ⟨2, ![17, 32768]⟩
abbrev S16x32768 : Shape := ⟨2, ![16, 32768]⟩
abbrev S15x32768 : Shape := ⟨2, ![15, 32768]⟩
abbrev S14x32768 : Shape := ⟨2, ![14, 32768]⟩
abbrev S13x32768 : Shape := ⟨2, ![13, 32768]⟩
abbrev S12x32768 : Shape := ⟨2, ![12, 32768]⟩
abbrev S11x32768 : Shape := ⟨2, ![11, 32768]⟩
abbrev S10x32768 : Shape := ⟨2, ![10, 32768]⟩
abbrev S9x32768 : Shape := ⟨2, ![9, 32768]⟩
abbrev S8x32768 : Shape := ⟨2, ![8, 32768]⟩
abbrev S7x32768 : Shape := ⟨2, ![7, 32768]⟩
abbrev S6x32768 : Shape := ⟨2, ![6, 32768]⟩
abbrev S5x32768 : Shape := ⟨2, ![5, 32768]⟩
abbrev S4x32768 : Shape := ⟨2, ![4, 32768]⟩
abbrev S3x32768 : Shape := ⟨2, ![3, 32768]⟩
abbrev S2x32768 : Shape := ⟨2, ![2, 32768]⟩
abbrev S1 : Shape := ⟨1, ![1]⟩
abbrev S1x1 : Shape := ⟨2, ![1, 1]⟩
abbrev S1x1x1 : Shape := ⟨3, ![1, 1, 1]⟩
abbrev S_ : Shape := ⟨0, ![]⟩

abbrev nBuf : Space → Nat
  | .hbm => 12
  | .vmem => 7
  | .smem => 0
  | _ => 0

abbrev bufTy : (tb : Table) → Fin (tcTables nBuf tb) → BufTy
  | .hbm, ⟨0, _⟩ => ⟨S20x4x1x8x128x128, .f32⟩
  | .hbm, ⟨1, _⟩ => ⟨S4x1x8x128x128, .f32⟩
  | .hbm, ⟨2, _⟩ => ⟨S20x524288, .f32⟩
  | .hbm, ⟨3, _⟩ => ⟨S1x524288, .f32⟩
  | .hbm, ⟨4, _⟩ => ⟨S2x8x128, .f32⟩
  | .hbm, ⟨5, _⟩ => ⟨S1x1x1, .f32⟩
  | .hbm, ⟨6, _⟩ => ⟨S_, .f32⟩
  | .hbm, ⟨7, _⟩ => ⟨S1x1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S20x32768, .f32⟩
  | .local _ .vmem, ⟨1, _⟩ => ⟨S20x32768, .f32⟩
  | .local _ .vmem, ⟨2, _⟩ => ⟨S1x32768, .f32⟩
  | .local _ .vmem, ⟨3, _⟩ => ⟨S1x32768, .f32⟩
  | .local _ .vmem, ⟨4, _⟩ => ⟨S1x8x128, .f32⟩
  | .local _ .vmem, ⟨5, _⟩ => ⟨S1x8x128, .f32⟩
  | .local _ .vmem, ⟨6, _⟩ => ⟨S8x128, .f32⟩
  | _, _ => ⟨S20x4x1x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v159 : BitVec 1 := Scalar.cmpi .eq arg1 c7_i32
  let v160 : BitVec 32 := Scalar.extui v159
  let c0_i32_31 : BitVec 32 := 0#32
  let v161 : BitVec 1 := Scalar.cmpi .ne v160 c0_i32_31
  v161

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S20x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S20x4x1x8x128x128_S20x524288 : S20x4x1x8x128x128.ShapeCasts S20x524288
  shapeCasts_S4x1x8x128x128_S1x524288 : S4x1x8x128x128.ShapeCasts S1x524288
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S20x32768_S20x32768_0_0 : ∀ a, (![0, 0] : Fin 2 → Nat) a + S20x32768.size a ≤ S20x32768.size a
  h_S20x32768 : 0 < S20x32768.numel
  shapeCasts_S20x32768_S20x32768 : S20x32768.ShapeCasts S20x32768
  inb_S1x32768_S1x32768_0_0 : ∀ a, (![0, 0] : Fin 2 → Nat) a + S1x32768.size a ≤ S1x32768.size a
  h_S1x32768 : 0 < S1x32768.numel
  shapeCasts_S1x32768_S1x32768 : S1x32768.ShapeCasts S1x32768
  broadcasts_S1x32768_S20x32768 : S1x32768.Broadcasts S20x32768
  reduces_S20x32768_S32768 : S20x32768.Reduces [0] S32768
  slices_S20x32768_o0_0_S1x32768 : S20x32768.Slices ![0, 0] S1x32768
  slices_S20x32768_o1_0_S19x32768 : S20x32768.Slices ![1, 0] S19x32768
  broadcasts_S1x32768_S19x32768 : S1x32768.Broadcasts S19x32768
  reduces_S19x32768_S32768 : S19x32768.Reduces [0] S32768
  slices_S20x32768_o1_0_S1x32768 : S20x32768.Slices ![1, 0] S1x32768
  slices_S20x32768_o2_0_S18x32768 : S20x32768.Slices ![2, 0] S18x32768
  broadcasts_S1x32768_S18x32768 : S1x32768.Broadcasts S18x32768
  reduces_S18x32768_S32768 : S18x32768.Reduces [0] S32768
  slices_S20x32768_o2_0_S1x32768 : S20x32768.Slices ![2, 0] S1x32768
  slices_S20x32768_o3_0_S17x32768 : S20x32768.Slices ![3, 0] S17x32768
  broadcasts_S1x32768_S17x32768 : S1x32768.Broadcasts S17x32768
  reduces_S17x32768_S32768 : S17x32768.Reduces [0] S32768
  slices_S20x32768_o3_0_S1x32768 : S20x32768.Slices ![3, 0] S1x32768
  slices_S20x32768_o4_0_S16x32768 : S20x32768.Slices ![4, 0] S16x32768
  broadcasts_S1x32768_S16x32768 : S1x32768.Broadcasts S16x32768
  reduces_S16x32768_S32768 : S16x32768.Reduces [0] S32768
  slices_S20x32768_o4_0_S1x32768 : S20x32768.Slices ![4, 0] S1x32768
  slices_S20x32768_o5_0_S15x32768 : S20x32768.Slices ![5, 0] S15x32768
  broadcasts_S1x32768_S15x32768 : S1x32768.Broadcasts S15x32768
  reduces_S15x32768_S32768 : S15x32768.Reduces [0] S32768
  slices_S20x32768_o5_0_S1x32768 : S20x32768.Slices ![5, 0] S1x32768
  slices_S20x32768_o6_0_S14x32768 : S20x32768.Slices ![6, 0] S14x32768
  broadcasts_S1x32768_S14x32768 : S1x32768.Broadcasts S14x32768
  reduces_S14x32768_S32768 : S14x32768.Reduces [0] S32768
  slices_S20x32768_o6_0_S1x32768 : S20x32768.Slices ![6, 0] S1x32768
  slices_S20x32768_o7_0_S13x32768 : S20x32768.Slices ![7, 0] S13x32768
  broadcasts_S1x32768_S13x32768 : S1x32768.Broadcasts S13x32768
  reduces_S13x32768_S32768 : S13x32768.Reduces [0] S32768
  slices_S20x32768_o7_0_S1x32768 : S20x32768.Slices ![7, 0] S1x32768
  slices_S20x32768_o8_0_S12x32768 : S20x32768.Slices ![8, 0] S12x32768
  broadcasts_S1x32768_S12x32768 : S1x32768.Broadcasts S12x32768
  reduces_S12x32768_S32768 : S12x32768.Reduces [0] S32768
  slices_S20x32768_o8_0_S1x32768 : S20x32768.Slices ![8, 0] S1x32768
  slices_S20x32768_o9_0_S11x32768 : S20x32768.Slices ![9, 0] S11x32768
  broadcasts_S1x32768_S11x32768 : S1x32768.Broadcasts S11x32768
  reduces_S11x32768_S32768 : S11x32768.Reduces [0] S32768
  slices_S20x32768_o9_0_S1x32768 : S20x32768.Slices ![9, 0] S1x32768
  slices_S20x32768_o10_0_S10x32768 : S20x32768.Slices ![10, 0] S10x32768
  broadcasts_S1x32768_S10x32768 : S1x32768.Broadcasts S10x32768
  reduces_S10x32768_S32768 : S10x32768.Reduces [0] S32768
  slices_S20x32768_o10_0_S1x32768 : S20x32768.Slices ![10, 0] S1x32768
  slices_S20x32768_o11_0_S9x32768 : S20x32768.Slices ![11, 0] S9x32768
  broadcasts_S1x32768_S9x32768 : S1x32768.Broadcasts S9x32768
  reduces_S9x32768_S32768 : S9x32768.Reduces [0] S32768
  slices_S20x32768_o11_0_S1x32768 : S20x32768.Slices ![11, 0] S1x32768
  slices_S20x32768_o12_0_S8x32768 : S20x32768.Slices ![12, 0] S8x32768
  broadcasts_S1x32768_S8x32768 : S1x32768.Broadcasts S8x32768
  reduces_S8x32768_S32768 : S8x32768.Reduces [0] S32768
  slices_S20x32768_o12_0_S1x32768 : S20x32768.Slices ![12, 0] S1x32768
  slices_S20x32768_o13_0_S7x32768 : S20x32768.Slices ![13, 0] S7x32768
  broadcasts_S1x32768_S7x32768 : S1x32768.Broadcasts S7x32768
  reduces_S7x32768_S32768 : S7x32768.Reduces [0] S32768
  slices_S20x32768_o13_0_S1x32768 : S20x32768.Slices ![13, 0] S1x32768
  slices_S20x32768_o14_0_S6x32768 : S20x32768.Slices ![14, 0] S6x32768
  broadcasts_S1x32768_S6x32768 : S1x32768.Broadcasts S6x32768
  reduces_S6x32768_S32768 : S6x32768.Reduces [0] S32768
  slices_S20x32768_o14_0_S1x32768 : S20x32768.Slices ![14, 0] S1x32768
  slices_S20x32768_o15_0_S5x32768 : S20x32768.Slices ![15, 0] S5x32768
  broadcasts_S1x32768_S5x32768 : S1x32768.Broadcasts S5x32768
  reduces_S5x32768_S32768 : S5x32768.Reduces [0] S32768
  slices_S20x32768_o15_0_S1x32768 : S20x32768.Slices ![15, 0] S1x32768
  slices_S20x32768_o16_0_S4x32768 : S20x32768.Slices ![16, 0] S4x32768
  broadcasts_S1x32768_S4x32768 : S1x32768.Broadcasts S4x32768
  reduces_S4x32768_S32768 : S4x32768.Reduces [0] S32768
  slices_S20x32768_o16_0_S1x32768 : S20x32768.Slices ![16, 0] S1x32768
  slices_S20x32768_o17_0_S3x32768 : S20x32768.Slices ![17, 0] S3x32768
  broadcasts_S1x32768_S3x32768 : S1x32768.Broadcasts S3x32768
  reduces_S3x32768_S32768 : S3x32768.Reduces [0] S32768
  slices_S20x32768_o17_0_S1x32768 : S20x32768.Slices ![17, 0] S1x32768
  slices_S20x32768_o18_0_S2x32768 : S20x32768.Slices ![18, 0] S2x32768
  broadcasts_S1x32768_S2x32768 : S1x32768.Broadcasts S2x32768
  reduces_S2x32768_S32768 : S2x32768.Reduces [0] S32768
  slices_S20x32768_o18_0_S1x32768 : S20x32768.Slices ![18, 0] S1x32768
  slices_S20x32768_o19_0_S1x32768 : S20x32768.Slices ![19, 0] S1x32768
  reduces_S1x32768_S32768 : S1x32768.Reduces [0] S32768
  shapeCasts_S32768_S1x32768 : S32768.ShapeCasts S1x32768
  reduces_S1x32768_S1 : S1x32768.Reduces [1] S1
  shapeCasts_S1_S1x1 : S1.ShapeCasts S1x1
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20x32768.size a ≤ S20x524288.size a
  hwx0_0 : ∀ i : grid0.Coords, EltTy.bits .f32 = 32 ∨ (Rect.block (s := S20x524288) S20x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32768.size a ≤ S1x524288.size a
  hwx0_1 : ∀ i : grid0.Coords, EltTy.bits .f32 = 32 ∨ (Rect.block (s := S1x524288) S1x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_v0) S20x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S20x4x1x8x128x128 : Shape := ⟨6, ![20, 4, 1, 8, 128, 128]⟩
abbrev S4x1x8x128x128 : Shape := ⟨5, ![4, 1, 8, 128, 128]⟩
abbrev S1x4x1x8x128x128 : Shape := ⟨6, ![1, 4, 1, 8, 128, 128]⟩
abbrev S_ : Shape := ⟨0, ![]⟩
abbrev S20x1x4x1x8x128x128 : Shape := ⟨7, ![20, 1, 4, 1, 8, 128, 128]⟩
abbrev S1x20x4x1x8x128x128 : Shape := ⟨7, ![1, 20, 4, 1, 8, 128, 128]⟩
abbrev S20x20x4x1x8x128x128 : Shape := ⟨7, ![20, 20, 4, 1, 8, 128, 128]⟩

abbrev nBuf : Space → Nat
  | .hbm => 30
  | .vmem => 0
  | .smem => 0
  | _ => 0

abbrev bufTy : (tb : Table) → Fin (tcTables nBuf tb) → BufTy
  | .hbm, ⟨0, _⟩ => ⟨S20x4x1x8x128x128, .f32⟩
  | .hbm, ⟨1, _⟩ => ⟨S4x1x8x128x128, .f32⟩
  | .hbm, ⟨2, _⟩ => ⟨S1x4x1x8x128x128, .f32⟩
  | .hbm, ⟨3, _⟩ => ⟨S20x4x1x8x128x128, .f32⟩
  | .hbm, ⟨4, _⟩ => ⟨S20x4x1x8x128x128, .f32⟩
  | .hbm, ⟨5, _⟩ => ⟨S20x4x1x8x128x128, .f32⟩
  | .hbm, ⟨6, _⟩ => ⟨S_, .f32⟩
  | .hbm, ⟨7, _⟩ => ⟨S4x1x8x128x128, .f32⟩
  | .hbm, ⟨8, _⟩ => ⟨S_, .f32⟩
  | .hbm, ⟨9, _⟩ => ⟨S4x1x8x128x128, .f32⟩
  | .hbm, ⟨10, _⟩ => ⟨S4x1x8x128x128, .f32⟩
  | .hbm, ⟨11, _⟩ => ⟨S20x1x4x1x8x128x128, .f32⟩
  | .hbm, ⟨12, _⟩ => ⟨S1x20x4x1x8x128x128, .f32⟩
  | .hbm, ⟨13, _⟩ => ⟨S20x20x4x1x8x128x128, .f32⟩
  | .hbm, ⟨14, _⟩ => ⟨S20x20x4x1x8x128x128, .f32⟩
  | .hbm, ⟨15, _⟩ => ⟨S20x20x4x1x8x128x128, .f32⟩
  | .hbm, ⟨16, _⟩ => ⟨S20x20x4x1x8x128x128, .f32⟩
  | .hbm, ⟨17, _⟩ => ⟨S_, .f32⟩
  | .hbm, ⟨18, _⟩ => ⟨S4x1x8x128x128, .f32⟩
  | .hbm, ⟨19, _⟩ => ⟨S_, .f32⟩
  | .hbm, ⟨20, _⟩ => ⟨S4x1x8x128x128, .f32⟩
  | .hbm, ⟨21, _⟩ => ⟨S4x1x8x128x128, .f32⟩
  | .hbm, ⟨22, _⟩ => ⟨S_, .f32⟩
  | .hbm, ⟨23, _⟩ => ⟨S4x1x8x128x128, .f32⟩
  | .hbm, ⟨24, _⟩ => ⟨S4x1x8x128x128, .f32⟩
  | .hbm, ⟨25, _⟩ => ⟨S4x1x8x128x128, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S20x4x1x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S4x1x8x128x128_S1x4x1x8x128x128_1_2_3_4_5 : S4x1x8x128x128.BroadcastsInDim S1x4x1x8x128x128 (![1, 2, 3, 4, 5] : Fin 5 → Fin S1x4x1x8x128x128.rank)
  bcast_S1x4x1x8x128x128_S20x4x1x8x128x128_0_1_2_3_4_5 : S1x4x1x8x128x128.BroadcastsInDim S20x4x1x8x128x128 (![0, 1, 2, 3, 4, 5] : Fin 6 → Fin S20x4x1x8x128x128.rank)
  reducesTo_S20x4x1x8x128x128_S4x1x8x128x128_d0 : S20x4x1x8x128x128.ReducesTo [0] S4x1x8x128x128
  h_S_ : 0 < S_.numel
  bcast_S_S4x1x8x128x128 : S_.BroadcastsInDim S4x1x8x128x128 (![] : Fin 0 → Fin S4x1x8x128x128.rank)
  bcast_S20x4x1x8x128x128_S20x1x4x1x8x128x128_0_2_3_4_5_6 : S20x4x1x8x128x128.BroadcastsInDim S20x1x4x1x8x128x128 (![0, 2, 3, 4, 5, 6] : Fin 6 → Fin S20x1x4x1x8x128x128.rank)
  bcast_S20x4x1x8x128x128_S1x20x4x1x8x128x128_1_2_3_4_5_6 : S20x4x1x8x128x128.BroadcastsInDim S1x20x4x1x8x128x128 (![1, 2, 3, 4, 5, 6] : Fin 6 → Fin S1x20x4x1x8x128x128.rank)
  bcast_S20x1x4x1x8x128x128_S20x20x4x1x8x128x128_0_1_2_3_4_5_6 : S20x1x4x1x8x128x128.BroadcastsInDim S20x20x4x1x8x128x128 (![0, 1, 2, 3, 4, 5, 6] : Fin 7 → Fin S20x20x4x1x8x128x128.rank)
  bcast_S1x20x4x1x8x128x128_S20x20x4x1x8x128x128_0_1_2_3_4_5_6 : S1x20x4x1x8x128x128.BroadcastsInDim S20x20x4x1x8x128x128 (![0, 1, 2, 3, 4, 5, 6] : Fin 7 → Fin S20x20x4x1x8x128x128.rank)
  reducesTo_S20x20x4x1x8x128x128_S4x1x8x128x128_d0_1 : S20x20x4x1x8x128x128.ReducesTo [0, 1] S4x1x8x128x128
  reducesTo_S4x1x8x128x128_S_d0_1_2_3_4 : S4x1x8x128x128.ReducesTo [0, 1, 2, 3, 4] S_

variable [Facts₀]

class Facts : Prop extends Facts₀ where

variable [Facts]
-- ==== Proof.KernelPieces.lean ====
/-
  What one grid point does to the kernel's scratch accumulator and to its output block, in each of the three kinds of
  grid point a sweep has. A sweep is eight consecutive grid points over one half of the positions; the accumulator is
  an `[8, 128]` block every entry of which carries the same running total.

  * first point of a sweep: the accumulator is set to the zero block, then the point's contribution is added;
  * an inner point: the point's contribution is added to what the point before left;
  * last point of a sweep: the same, and the accumulator is copied into the output block `[1, 8, 128]`.

  Each statement holds for any float instance: it only says which value is stored where.
-/
import proofs.«110418_j51625506898387_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The scratch accumulator after one grid point, from the point's two input blocks and the accumulator before it. -/
def step (x0 : Vec F S20x32768 .f32) (x1 : Vec F S1x32768 .f32) (acc : Vec F S8x128 .f32) : Vec F S8x128 .f32 :=
  k0_pay1 (k0_pay10 (k0_pay5 x0 x1))
    (k0_pay11 (k0_pay4 x0) (k0_pay8 (k0_pay4 x0) (k0_pay6 x0) (k0_pay7 x0)) (k0_pay9 (k0_pay4 x0))) acc

/-- A grid point that is neither the first nor the last of its sweep: the accumulator goes from `xs0` to `step x0 x1 xs0`. -/
theorem sout_B (c : Dev nD) (i : grid0.Coords) (a2 : Memref sig .tc .vmem S20x32768 .f32) (h2 : a2.IsWhole)
    (a3 : Memref sig .tc .vmem S1x32768 .f32) (h3 : a3.IsWhole) (a4 : Memref sig .tc .vmem S1x8x128 .f32) (h4 : a4.IsWhole)
    (a5 : Memref sig .tc .vmem S8x128 .f32) (h5 : a5.IsWhole) (hc0 : ¬cond0_0 i) (hc1 : ¬cond0_1 i)
    (x0 : Vec F S20x32768 .f32) (x1 : Vec F S1x32768 .f32) (xs0 : Vec F S8x128 .f32) :
    sout0_B_0 c i a2 h2 a3 h3 a4 h4 a5 h5 hc0 hc1 x0 x1 xs0 = step x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz2]
  simp only [View.readAt_eq_ld, h2.read_unread, h3.read_unread, h5.read_unread, View.ld_unit_zero (S := S20x32768) hz2,
    View.ld_unit_zero (S := S1x32768) hz2, View.ld_unit_zero (S := S8x128) hz2]
  rfl

/-- The last point of a sweep: the accumulator takes the same step, -/
theorem sout_C (c : Dev nD) (i : grid0.Coords) (a2 : Memref sig .tc .vmem S20x32768 .f32) (h2 : a2.IsWhole)
    (a3 : Memref sig .tc .vmem S1x32768 .f32) (h3 : a3.IsWhole) (a4 : Memref sig .tc .vmem S1x8x128 .f32) (h4 : a4.IsWhole)
    (a5 : Memref sig .tc .vmem S8x128 .f32) (h5 : a5.IsWhole) (hc0 : ¬cond0_0 i) (hc1 : cond0_1 i)
    (x0 : Vec F S20x32768 .f32) (x1 : Vec F S1x32768 .f32) (xs0 : Vec F S8x128 .f32) :
    sout0_C_0 c i a2 h2 a3 h3 a4 h4 a5 h5 hc0 hc1 x0 x1 xs0 = step x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread, View.ld_unit_zero (S := S20x32768) hz2,
    View.ld_unit_zero (S := S1x32768) hz2, View.ld_unit_zero (S := S8x128) hz2]
  rfl

/-- and the output block is stored: the stepped accumulator, as a `[1, 8, 128]` block. -/
theorem out_C (c : Dev nD) (i : grid0.Coords) (a2 : Memref sig .tc .vmem S20x32768 .f32) (h2 : a2.IsWhole)
    (a3 : Memref sig .tc .vmem S1x32768 .f32) (h3 : a3.IsWhole) (a4 : Memref sig .tc .vmem S1x8x128 .f32) (h4 : a4.IsWhole)
    (a5 : Memref sig .tc .vmem S8x128 .f32) (h5 : a5.IsWhole) (hc0 : ¬cond0_0 i) (hc1 : cond0_1 i)
    (x0 : Vec F S20x32768 .f32) (x1 : Vec F S1x32768 .f32) (xs0 : Vec F S8x128 .f32) :
    out0_C_2 c i a2 h2 a3 h3 a4 h4 a5 h5 hc0 hc1 x0 x1 xs0 = k0_pay2 (step x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3, View.readCov_unit_zero (S := S8x128) _ hz2]
  simp only [View.readAt_eq_ld, h2.read_unread, h3.read_unread, h5.read_unread, View.ld_unit_zero (S := S20x32768) hz2,
    View.ld_unit_zero (S := S1x32768) hz2, View.ld_unit_zero (S := S8x128) hz2]
  rfl

/-- The first point of a sweep: the accumulator is zeroed first, then takes the step from the zero block. -/
theorem sout_A (c : Dev nD) (i : grid0.Coords) (a2 : Memref sig .tc .vmem S20x32768 .f32) (h2 : a2.IsWhole)
    (a3 : Memref sig .tc .vmem S1x32768 .f32) (h3 : a3.IsWhole) (a4 : Memref sig .tc .vmem S1x8x128 .f32) (h4 : a4.IsWhole)
    (a5 : Memref sig .tc .vmem S8x128 .f32) (h5 : a5.IsWhole) (hc0 : cond0_0 i) (hc1 : ¬cond0_1 i)
    (x0 : Vec F S20x32768 .f32) (x1 : Vec F S1x32768 .f32) :
    sout0_A_0 c i a2 h2 a3 h3 a4 h4 a5 h5 hc0 hc1 x0 x1 = step x0 x1 (k0_pay3 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S8x128) hz2, View.readCov_unit_zero (S := S8x128) _ hz2]
  simp only [View.readAt_eq_ld, h2.read_unread, h3.read_unread, View.ld_unit_zero (S := S20x32768) hz2,
    View.ld_unit_zero (S := S1x32768) hz2]
  rfl

end Cert.KernelIdeal.Pieces
end
-- ==== Proof.CrpsSpec.lean ====
/-
  The per-position value both programs compute, as a function of one ensemble column `Y 0, …, Y 19` (the twenty
  forecasts at one grid position) and the observation `o` there, on the extended reals.

  * The kernel's form: the mean absolute error `(∑ₖ |Yₖ - o|) / 20` minus the sum of `|Yⱼ - Yᵢ|` over the pairs
    `i < j` — row `i` contributing the `19 - i` pairs `(i, i + 1 + k)` — divided by `400`.
  * The reference's form: the same first term (its sum started from `0`), minus the sum of `|Yₐ - Y_b|` over ALL
    ordered pairs `(a, b)`, divided by `400`, times one half.

  The words `0x41A00000`, `0x43C80000`, `0x3F000000` are the f32 numbers `20`, `400`, `1/2`.
-/
import Idealize.ShloMosaic.PureOps.Ideal
import Idealize.ShloMosaic.PureOps.Ideal.Laws

noncomputable section

open scoped BigOperators

namespace Cert.CrpsSpec

open Idealize.ShloMosaic

/-- The absolute value as both programs compute it on the extended reals: the larger of `z` and `-z`. -/
def eabs (z : EReal) : EReal := max z (-z)

/-- The kernel's value at one position. -/
def kerCol (Y : ℕ → EReal) (o : EReal) : EReal :=
  Ideal.div (∑ k ∈ Finset.range 20, eabs (Y k - o)) (Ideal.ofBits .f32 0x41A00000#32)
    - Ideal.div (∑ i ∈ Finset.range 19, ∑ k ∈ Finset.range (19 - i), eabs (Y (i + 1 + k) - Y i))
        (Ideal.ofBits .f32 0x43C80000#32)

/-- The reference's value at one position. -/
def refCol (Y : ℕ → EReal) (o : EReal) : EReal :=
  Ideal.div (0 + ∑ k ∈ Finset.range 20, eabs (Y k - o)) (Ideal.ofBits .f32 0x41A00000#32)
    - Ideal.div (0 + ∑ a ∈ Finset.range 20, ∑ b ∈ Finset.range 20, eabs (Y a - Y b)) (Ideal.ofBits .f32 0x43C80000#32)
        * Ideal.ofBits .f32 0x3F000000#32

end Cert.CrpsSpec

end
-- ==== Proof.BlockSpec.lean ====
/-
  One grid point's contribution. At a grid point the kernel holds a `[20, 32768]` block of the flattened forecasts and
  the matching `[1, 32768]` block of the flattened observations; lane `q` of the block is one position, whose ensemble
  column is the block's column `q`. The point adds to the accumulator the sum over the lanes of the per-position value.
-/
import proofs.«110418_j51625506898387_2_alg».proof.KernelIdeal
import proofs.«110418_j51625506898387_2_alg».proof.Proof.CrpsSpec
import Idealize.ShloMosaic.Lib.ValueIdx

noncomputable section

open scoped BigOperators
open Idealize.ShloMosaic Idealize.ShloMosaic.ValueIdx

namespace Cert.KernelIdeal.Block

open Cert.KernelIdeal Cert.CrpsSpec

/-- The ensemble column of a `[20, 32768]` forecast block at lane `q`, as a sequence (entries past 19 are never read). -/
def colOf (x0 : Vec Ideal S20x32768 .f32) (q : Fin 32768) (n : ℕ) : EReal :=
  if h : n < 20 then x0 (ix2 ⟨n, h⟩ q) else 0

/-- What one grid point adds to the accumulator: the sum, over the block's 32768 lanes, of the kernel's per-position
    value of the lane's ensemble column and observation. -/
def blockSum (x0 : Vec Ideal S20x32768 .f32) (x1 : Vec Ideal S1x32768 .f32) : EReal :=
  ∑ q : Fin 32768, kerCol (colOf x0 q) (x1 (ix2 0 q))

end Cert.KernelIdeal.Block

end
-- ==== Proof.KernelStep.lean ====
/-
  One grid point of the kernel, read at the ideal values (floats as extended reals, every operation exact).

  At a grid point the body holds a `[20, 32768]` forecast block `x0` and the `[1, 32768]` observation block `x1`. Per
  lane `q` it forms
    first q = ∑ᵣ |x0[r, q] - x1[0, q]|          (one sum over the twenty rows),
    pair  q = ((0 + P₀ q) + P₁ q) + … + P₁₈ q,   Pᵢ q = ∑ᵣ |x0[i + 1 + r, q] - x0[i, q]|  over the 19 - i later rows,
  then `first q / 20 - pair q / 400`, sums that over the lanes, and adds the one number to every entry of the `[8, 128]`
  accumulator. Row `i` of the pair term is a slice of the rows after `i`, minus row `i` broadcast over them; each
  row is read once, generically in its length (`row_sum`), the last row (one pair, no broadcast) apart. So the step is
  `acc + blockSum x0 x1` at every entry (`step_apply`), with `blockSum` the lane sum of the per-position value of
  the specification.
-/
import proofs.«110418_j51625506898387_2_alg».proof.Proof.KernelPieces
import proofs.«110418_j51625506898387_2_alg».proof.Proof.BlockSpec
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.ValueIdx

namespace Cert.KernelIdeal.Step

open Cert.KernelIdeal Cert.KernelIdeal.Gen Cert.KernelIdeal.Pieces Cert.CrpsSpec Cert.KernelIdeal.Block

/-- A lane total: the sum over axis 1 of a one-row vector. -/
theorem total_row (v : FVec Ideal S1x32768 .f32) (hr : S1x32768.Reduces [1] S1) (hφ : FKind.Formats .f32)
    (hacc : (0x00000000#32 : BitVec 32) = FKind.add.neutral .f32 hφ) (j : S1.Idx) :
    multiReduction (F := Ideal) .add [1] S1 v 0x00000000#32 hr hφ hacc j = ∑ q : Fin 32768, v (ix2 0 q) := by
  refine (Ideal.multiReduction_add_single (φ := .f32) v 0x00000000#32 hr hφ hacc j).trans ?_
  refine Finset.sum_congr rfl fun q _ => congrArg v ?_
  funext a
  match a with
  | ⟨0, _⟩ =>
    have h1 : (j 0).val < 1 := (j 0).isLt
    exact Fin.ext ((show (hr.lift j q 0).val = (j 0).val from rfl).trans (Nat.lt_one_iff.mp h1))
  | ⟨1, _⟩ => exact Fin.ext rfl

/-- The entry `[0, 0]` of a `[1, 1]` vector. -/
theorem extractAt_00 {α : Type} (X : S1x1.Idx → α) (h : ∀ a, (![0, 0] : Fin 2 → Nat) a < S1x1.size a) :
    extractAt ![0, 0] X h = X (ix2 (0 : Fin 1) (0 : Fin 1)) :=
  congrArg X (funext fun a => match a with | ⟨0, _⟩ => rfl | ⟨1, _⟩ => rfl)

/-- Adding one number to every entry of the accumulator block. -/
theorem add_splat (acc : Vec Ideal S8x128 .f32) (s : Ideal .f32) (h : S8x128.ShapeCasts S8x128) (j : S8x128.Idx) :
    shapeCast S8x128 (addf acc (broadcast S8x128 s)) h j = acc j + s := by
  rw [shapeCast_self]; rfl

theorem pay1_eq (a b : FVec Ideal S32768 .f32) (acc : Vec Ideal S8x128 .f32) :
    k0_pay1 (F := Ideal) a b acc = shapeCast S8x128 (addf acc (broadcast S8x128 (extractAt ![0, 0]
      (shapeCast S1x1 (multiReduction .add [1] S1 (shapeCast S1x32768 (subf a b) shapeCasts_S32768_S1x32768)
        0x00000000#32 reduces_S1x32768_S1 (.inl rfl) rfl) shapeCasts_S1_S1x1) inpos_S1x1_p0_0))) shapeCasts_S8x128_S8x128 := rfl

/-- The accumulate step at an entry: the entry plus the lane total of the difference of the two per-lane terms. -/
theorem pay1_apply (a b : FVec Ideal S32768 .f32) (acc : Vec Ideal S8x128 .f32) (j : S8x128.Idx) :
    k0_pay1 (F := Ideal) a b acc j = acc j + ∑ q : Fin 32768, (a (ix1 q) - b (ix1 q)) := by
  rw [pay1_eq]
  refine (add_splat acc _ shapeCasts_S8x128_S8x128 j).trans (congrArg (acc j + ·) ?_)
  refine (extractAt_00 _ inpos_S1x1_p0_0).trans ?_
  refine (shapeCast_a_1a_apply _ shapeCasts_S1_S1x1 0 0).trans ?_
  refine (total_row _ reduces_S1x32768_S1 (.inl rfl) rfl (ix1 0)).trans ?_
  exact Finset.sum_congr rfl fun q _ => shapeCast_a_1a_apply (subf a b) shapeCasts_S32768_S1x32768 0 q

/-- The absolute value of a difference of two vectors, at an index. -/
theorem abs_sub_apply {s : Shape} (a b : FVec Ideal s .f32) (i : s.Idx) : absf (subf a b) i = eabs (a i - b i) := rfl

/-- Row `off` of the pair term at lane `q`: the sum over `r < n` of `|Y (off + 1 + r) - Y off|` of the lane's column. -/
def pairRow (v : Vec Ideal S20x32768 .f32) (q : Fin 32768) (off n : ℕ) : EReal :=
  ∑ r ∈ Finset.range n, eabs (colOf v q (off + 1 + r) - colOf v q off)

/-- The rows `off + 1, …, off + n` of the block minus its row `off`, in absolute value, summed over those rows: row `off`
    of the pair term. -/
theorem row_sum {n : ℕ} (off : ℕ) (hoff : off + 1 + n ≤ 20) (v : Vec Ideal S20x32768 .f32)
    (hs : S20x32768.Slices ![off + 1, 0] ⟨2, ![n, 32768]⟩) (hs1 : S20x32768.Slices ![off, 0] S1x32768)
    (hb : S1x32768.Broadcasts ⟨2, ![n, 32768]⟩) (hr : (⟨2, ![n, 32768]⟩ : Shape).Reduces [0] S32768)
    (hφ : FKind.Formats .f32) (hacc : (0x00000000#32 : BitVec 32) = FKind.add.neutral .f32 hφ) (q : Fin 32768) :
    multiReduction (F := Ideal) .add [0] S32768
      (absf (subf (extractStridedSlice ⟨2, ![n, 32768]⟩ ![off + 1, 0] v hs)
        (broadcastTo ⟨2, ![n, 32768]⟩ (extractStridedSlice S1x32768 ![off, 0] v hs1) hb))) 0x00000000#32 hr hφ hacc (ix1 q)
      = pairRow v q off n := by
  refine (Ideal.multiReduction_add_single (φ := .f32) _ 0x00000000#32 hr hφ hacc (ix1 q)).trans ?_
  refine Eq.trans ?_ (Fin.sum_univ_eq_sum_range (fun r => eabs (colOf v q (off + 1 + r) - colOf v q off)) n)
  refine Finset.sum_congr rfl fun (k : Fin n) _ => ?_
  have hk : k.val < n := k.isLt
  have hl : hr.lift (ix1 q) k = ix2 k q := funext fun a => match a with | ⟨0, _⟩ => Fin.ext rfl | ⟨1, _⟩ => Fin.ext rfl
  have e1 : extractStridedSlice ⟨2, ![n, 32768]⟩ ![off + 1, 0] v hs (ix2 k q) = v (ix2 ⟨off + 1 + k.val, by omega⟩ q) :=
    extractStridedSlice_apply _ v hs _ _ fun a => match a with | ⟨0, _⟩ => rfl | ⟨1, _⟩ => (Nat.zero_add _).symm
  have e2 : broadcastTo ⟨2, ![n, 32768]⟩ (extractStridedSlice S1x32768 ![off, 0] v hs1) hb (ix2 k q) = v (ix2 ⟨off, by omega⟩ q) :=
    (broadcastTo_1b_ab_apply _ hb k q).trans
      (extractStridedSlice_apply _ v hs1 _ _ fun a => match a with | ⟨0, _⟩ => rfl | ⟨1, _⟩ => (Nat.zero_add _).symm)
  rw [hl, abs_sub_apply, e1, e2]
  unfold colOf
  rw [dif_pos (by omega), dif_pos (by omega)]

/-- The first term at lane `q`: the sum over the twenty rows of `|Y r - o|`. -/
theorem first_sum (x0 : Vec Ideal S20x32768 .f32) (x1 : Vec Ideal S1x32768 .f32) (hb : S1x32768.Broadcasts S20x32768)
    (hr : S20x32768.Reduces [0] S32768) (hφ : FKind.Formats .f32)
    (hacc : (0x00000000#32 : BitVec 32) = FKind.add.neutral .f32 hφ) (q : Fin 32768) :
    multiReduction (F := Ideal) .add [0] S32768 (absf (subf x0 (broadcastTo S20x32768 x1 hb))) 0x00000000#32 hr hφ hacc (ix1 q)
      = ∑ r ∈ Finset.range 20, eabs (colOf x0 q r - x1 (ix2 0 q)) := by
  refine (Ideal.multiReduction_add_single (φ := .f32) _ 0x00000000#32 hr hφ hacc (ix1 q)).trans ?_
  refine Eq.trans ?_ (Fin.sum_univ_eq_sum_range (fun r => eabs (colOf x0 q r - x1 (ix2 0 q))) 20)
  refine Finset.sum_congr rfl fun (k : Fin 20) _ => ?_
  have hl : hr.lift (ix1 q) k = ix2 k q := funext fun a => match a with | ⟨0, _⟩ => Fin.ext rfl | ⟨1, _⟩ => Fin.ext rfl
  rw [hl, abs_sub_apply, broadcastTo_1b_ab_apply]
  unfold colOf
  rw [dif_pos k.isLt]

/-- The last row of the pair term: the one pair `(18, 19)`. -/
theorem last_row (v : Vec Ideal S20x32768 .f32) (hs19 : S20x32768.Slices ![19, 0] S1x32768)
    (hs18 : S20x32768.Slices ![18, 0] S1x32768) (hr : S1x32768.Reduces [0] S32768) (hφ : FKind.Formats .f32)
    (hacc : (0x00000000#32 : BitVec 32) = FKind.add.neutral .f32 hφ) (q : Fin 32768) :
    multiReduction (F := Ideal) .add [0] S32768
      (absf (subf (extractStridedSlice S1x32768 ![19, 0] v hs19) (extractStridedSlice S1x32768 ![18, 0] v hs18)))
      0x00000000#32 hr hφ hacc (ix1 q) = pairRow v q 18 1 := by
  refine (Ideal.multiReduction_add_single (φ := .f32) _ 0x00000000#32 hr hφ hacc (ix1 q)).trans ?_
  refine Eq.trans ?_ (Fin.sum_univ_eq_sum_range (fun r => eabs (colOf v q (18 + 1 + r) - colOf v q 18)) 1)
  refine Finset.sum_congr rfl fun (k : Fin 1) _ => ?_
  have hk : k.val = 0 := Nat.lt_one_iff.mp k.isLt
  have hl : hr.lift (ix1 q) k = ix2 k q := funext fun a => match a with | ⟨0, _⟩ => Fin.ext rfl | ⟨1, _⟩ => Fin.ext rfl
  have e1 : extractStridedSlice S1x32768 ![19, 0] v hs19 (ix2 k q) = v (ix2 ⟨18 + 1 + k.val, by omega⟩ q) :=
    extractStridedSlice_apply _ v hs19 _ _ fun a => match a with | ⟨0, _⟩ => rfl | ⟨1, _⟩ => (Nat.zero_add _).symm
  have e2 : extractStridedSlice S1x32768 ![18, 0] v hs18 (ix2 k q) = v (ix2 ⟨18, by omega⟩ q) :=
    extractStridedSlice_apply _ v hs18 _ _ fun a => match a with
      | ⟨0, _⟩ => (show (18 : ℕ) = 18 + k.val by omega) | ⟨1, _⟩ => (Nat.zero_add _).symm
  rw [hl, abs_sub_apply, e1, e2]
  unfold colOf
  rw [dif_pos (by omega), dif_pos (by omega)]

theorem pay4_eq (v : Vec Ideal S20x32768 .f32) : k0_pay4 (F := Ideal) v = v := shapeCast_self _ _

theorem add_congr {a a' b b' : EReal} (h1 : a = a') (h2 : b = b') : a + b = a' + b' := by rw [h1, h2]

/-- The first term over its divisor, at lane `q`. -/
theorem first_apply (x0 : Vec Ideal S20x32768 .f32) (x1 : Vec Ideal S1x32768 .f32) (q : Fin 32768) :
    k0_pay10 (F := Ideal) (k0_pay5 x0 x1) (ix1 q)
      = Ideal.div (∑ r ∈ Finset.range 20, eabs (colOf x0 q r - x1 (ix2 0 q))) (Ideal.ofBits .f32 0x41A00000#32) := by
  unfold k0_pay10 k0_pay5
  simp only [pay4_eq, divf_apply, broadcast_apply, shapeCast_self]
  refine congrArg (fun z => Ideal.div z (Ideal.ofBits .f32 0x41A00000#32)) ?_
  exact first_sum x0 x1 _ _ _ _ q

/-- The pair term over its divisor, at lane `q`: the nineteen rows added in order from zero. -/
theorem pair_apply (x0 : Vec Ideal S20x32768 .f32) (q : Fin 32768) :
    k0_pay11 (F := Ideal) (k0_pay4 x0) (k0_pay8 (k0_pay4 x0) (k0_pay6 x0) (k0_pay7 x0)) (k0_pay9 (k0_pay4 x0)) (ix1 q)
      = Ideal.div (∑ i ∈ Finset.range 19, pairRow x0 q i (19 - i)) (Ideal.ofBits .f32 0x43C80000#32) := by
  simp only [pay4_eq]
  unfold k0_pay11 k0_pay8 k0_pay6 k0_pay7 k0_pay9
  simp only [pay4_eq, divf_apply, addf_apply, broadcast_apply]
  refine congrArg (fun z => Ideal.div z (Ideal.ofBits .f32 0x43C80000#32)) ?_
  simp only [Finset.sum_range_succ, Finset.sum_range_zero, Nat.reduceSub]
  refine add_congr (add_congr (add_congr (add_congr (add_congr (add_congr (add_congr (add_congr (add_congr (add_congr
    (add_congr (add_congr (add_congr (add_congr (add_congr (add_congr (add_congr (add_congr (add_congr
      Ideal.ofBits_zero_f32
      (row_sum 0 (by decide) _ _ _ _ _ _ _ q)) (row_sum 1 (by decide) _ _ _ _ _ _ _ q)) (row_sum 2 (by decide) _ _ _ _ _ _ _ q)) (row_sum 3 (by decide) _ _ _ _ _ _ _ q))
      (row_sum 4 (by decide) _ _ _ _ _ _ _ q)) (row_sum 5 (by decide) _ _ _ _ _ _ _ q)) (row_sum 6 (by decide) _ _ _ _ _ _ _ q)) (row_sum 7 (by decide) _ _ _ _ _ _ _ q))
      (row_sum 8 (by decide) _ _ _ _ _ _ _ q)) (row_sum 9 (by decide) _ _ _ _ _ _ _ q)) (row_sum 10 (by decide) _ _ _ _ _ _ _ q)) (row_sum 11 (by decide) _ _ _ _ _ _ _ q))
      (row_sum 12 (by decide) _ _ _ _ _ _ _ q)) (row_sum 13 (by decide) _ _ _ _ _ _ _ q)) (row_sum 14 (by decide) _ _ _ _ _ _ _ q)) (row_sum 15 (by decide) _ _ _ _ _ _ _ q))
      (row_sum 16 (by decide) _ _ _ _ _ _ _ q)) (row_sum 17 (by decide) _ _ _ _ _ _ _ q)) (last_row x0 _ _ _ _ _ q)

/-- The zero block the first point of a sweep stores, at an entry. -/
theorem pay3_apply (j : S8x128.Idx) : k0_pay3 (F := Ideal) j = 0 := by
  unfold k0_pay3
  simp only [shapeCast_self, broadcast_apply]
  exact Ideal.ofBits_zero_f32

/-- ONE GRID POINT: every entry of the accumulator grows by the point's block sum. -/
theorem step_apply (x0 : Vec Ideal S20x32768 .f32) (x1 : Vec Ideal S1x32768 .f32) (acc : Vec Ideal S8x128 .f32)
    (j : S8x128.Idx) : step (F := Ideal) x0 x1 acc j = acc j + blockSum x0 x1 := by
  unfold step
  refine (pay1_apply _ _ acc j).trans (congrArg (acc j + ·) ?_)
  unfold blockSum
  refine Finset.sum_congr rfl fun q _ => ?_
  rw [first_apply, pair_apply]
  rfl

/-- The output block the last point of a sweep stores is the accumulator: `[1, 8, 128]` read at `(0, r, l)`. -/
theorem pay2_apply (v : Vec Ideal S8x128 .f32) (u : Fin 1) (r : Fin 8) (l : Fin 128) :
    k0_pay2 (F := Ideal) v (ix3 u r l) = v (ix2 r l) := by
  unfold k0_pay2
  exact shapeCast_ab_1ab_apply v _ u r l

end Cert.KernelIdeal.Step

end
-- ==== Proof.KernelRun.lean ====
/-
  The accumulator along the grid. The sixteen grid points are two sweeps of eight; point `n` contributes the block sum
  of its two input blocks. The first point of a sweep (`n % 8 = 0`) restarts the accumulator from zero, every other
  point adds to what the point before left, so after point `n` every entry of the accumulator is `accAt n`: the sum of
  the contributions of the sweep's points up to `n`, added in order from zero. The last point of a sweep (`n % 8 = 7`)
  also copies the accumulator into the output block. Induction on the point; the grid is never enumerated.
-/
import proofs.«110418_j51625506898387_2_alg».proof.Proof.KernelStep

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.KernelIdeal.Pieces Cert.KernelIdeal.Step Cert.KernelIdeal.Block Cert.CrpsSpec

variable (m : (ℓ : Loc nD τ sig) → Buf (Elt Ideal) ℓ)

/-- What grid point `n` contributes: the block sum of its two input blocks (zero past the grid: never read). -/
def contrib (c : Dev nD) (n : ℕ) : EReal :=
  if h : n < cfg0.N then blockSum (iblk m c 0 ⟨n, h⟩) (iblk m c 1 ⟨n, h⟩) else 0

/-- Every entry of the accumulator after grid point `n`. -/
def accAt (c : Dev nD) : ℕ → EReal
  | 0 => 0 + contrib m c 0
  | n + 1 => if (n + 1) % 8 = 0 then 0 + contrib m c (n + 1) else accAt c n + contrib m c (n + 1)

theorem accAt_zero (c : Dev nD) : accAt m c 0 = 0 + contrib m c 0 := rfl
theorem accAt_succ (c : Dev nD) (n : ℕ) :
    accAt m c (n + 1) = if (n + 1) % 8 = 0 then 0 + contrib m c (n + 1) else accAt m c n + contrib m c (n + 1) := rfl

theorem contrib_eq (c : Dev nD) (n : ℕ) (hn : n < cfg0.N) :
    contrib m c n = blockSum (iblk m c 0 ⟨n, hn⟩) (iblk m c 1 ⟨n, hn⟩) := dif_pos hn

/-- THE ACCUMULATOR: after point `n` the carried scratch holds `accAt n` at every entry. -/
theorem scratch_eq (c : Dev nD) : ∀ (n : ℕ) (hn : n < cfg0.N) (j : S8x128.Idx), (outsAt0 m c n hn).2 j = accAt m c n
  | 0, hn, j => by
    have e := congrArg Prod.snd (outsAt0_A m c ⟨0, hn⟩ rfl (show ¬(0 : ℕ) % 8 = 7 by decide))
    rw [show (outsAt0 m c 0 hn).2 = _ from e]
    dsimp only
    rw [sout_A, step_apply, pay3_apply, accAt_zero, contrib_eq m c 0 hn]
  | n + 1, hn, j => by
    have hN : cfg0.N = 16 := N_0
    by_cases h0 : (n + 1) % 8 = 0
    · have h1 : ¬(n + 1) % 8 = 7 := by omega
      have e := congrArg Prod.snd (outsAt0_A m c ⟨n + 1, hn⟩ h0 h1)
      rw [show (outsAt0 m c (n + 1) hn).2 = _ from e]
      dsimp only
      rw [sout_A, step_apply, pay3_apply, accAt_succ, if_pos h0, contrib_eq m c (n + 1) hn]
    · by_cases h1 : (n + 1) % 8 = 7
      · have e := congrArg Prod.snd (outsAt0_C m c ⟨n + 1, hn⟩ h0 h1)
        rw [show (outsAt0 m c (n + 1) hn).2 = _ from e]
        dsimp only
        rw [sout_C, step_apply, accAt_succ, if_neg h0, contrib_eq m c (n + 1) hn]
        exact congrArg (· + _) (scratch_eq c n _ j)
      · have e := congrArg Prod.snd (outsAt0_B m c ⟨n + 1, hn⟩ h0 h1)
        rw [show (outsAt0 m c (n + 1) hn).2 = _ from e]
        dsimp only
        rw [sout_B, step_apply, accAt_succ, if_neg h0, contrib_eq m c (n + 1) hn]
        exact congrArg (· + _) (scratch_eq c n _ j)

/-- At the last point of a sweep the output block is the accumulator: entry `(0, r, l)` of the one is entry `(r, l)` of
    the other. -/
theorem out_eq_scratch (c : Dev nD) (n : ℕ) (hn : n < cfg0.N) (h0 : ¬n % 8 = 0) (h1 : n % 8 = 7) (u : Fin 1) (r : Fin 8)
    (l : Fin 128) : (outsAt0 m c n hn).1 (ix3 u r l) = (outsAt0 m c n hn).2 (ix2 r l) := by
  have e := outsAt0_C m c ⟨n, hn⟩ h0 h1
  rw [show (outsAt0 m c n hn).1 = _ from congrArg Prod.fst e, show (outsAt0 m c n hn).2 = _ from congrArg Prod.snd e]
  dsimp only
  rw [out_C, sout_C, pay2_apply]

/-- The first sweep's total: the eight contributions of points 0, …, 7. -/
theorem accAt_7 (c : Dev nD) : accAt m c 7 = ∑ t ∈ Finset.range 8, contrib m c t := by
  simp [accAt, Finset.sum_range_succ]

/-- The second sweep's total: the eight contributions of points 8, …, 15. -/
theorem accAt_15 (c : Dev nD) : accAt m c 15 = ∑ t ∈ Finset.range 8, contrib m c (8 + t) := by
  simp [accAt, Finset.sum_range_succ]

end Cert.KernelIdeal.Run

end
-- ==== Proof.KernelFinal.lean ====
/-
  What the region's output array holds after the run.

  The grid is 2 × 8, its 16 points numbered t = 8 p + s. The output window has blocks [1, 8, 128] of the
  [2, 8, 128] array, block index (p, 0, 0) at point t, and is written back exactly at the last point of each grid
  row (t ≡ 7 mod 8): point 7 writes block 0, point 15 writes block 1. So the array ends with, at (p, r, l), entry
  (0, r, l) of what the staging buffer holds after point 8 p + 7.
-/
import proofs.«110418_j51625506898387_2_alg».proof.Proof.Gen.KernelIdeal.Frame
import Idealize.ShloMosaic.Lib.Pipeline.Value
import Idealize.ShloMosaic.Lib.ValueIdx
import Idealize.ShloMosaic.Lib.Tactic

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F] (m : (ℓ : Loc nD τ sig) → Buf (Elt F) ℓ)

/-- The grid has 16 points, numbered 8 p + s for the coordinates (p, s) of the 2 × 8 grid: for p < 2 the point
8 p + 7, the last of row p, is one of them. -/
theorem pt_lt {p : ℕ} (hp : p < 2) : 8 * p + 7 < cfg0.N := by
  rw [show cfg0.N = 16 from N_0]; omega

/-- What the staging buffers hold after a point depends on the point's number only, not on how it is written. -/
theorem outsAt0_congr (c : Dev nD) {n n' : ℕ} (e : n = n') (h : n < cfg0.N) (h' : n' < cfg0.N) :
    outsAt0 m c n h = outsAt0 m c n' h' := by
  subst e; rfl

/-- What the output array ends holding: its entry (p, r, l) is entry (0, r, l) of what the output's staging
buffer holds after the last point 8 p + 7 of grid row p. -/
def G (c : Dev nD) : Vec F S2x8x128 .f32 :=
  fun i => (outsAt0 m c (8 * (i 0).val + 7) (pt_lt (i 0).isLt)).1 (ix3 (0 : Fin 1) (i 1) (i 2))

/-- The output window's index map, decided over the grid: at point t its block index is (t / 8, 0, 0). -/
theorem idx_facts : ∀ t : Fin cfg0.N, win0_2.index t (0 : Fin 3) = t.val / 8 ∧ win0_2.index t (1 : Fin 3) = 0
    ∧ win0_2.index t (2 : Fin 3) = 0 :=
  (by decide +kernel : ∀ t : Fin grid0.N, _)

/-- What a point t that writes the output back (t ≡ 7 mod 8) writes is block t of G: the block [1, 8, 128] at
block index (t / 8, 0, 0) has its entry (0, r, l) at the array's entry (t / 8, r, l), and 8 (t / 8) + 7 = t. -/
theorem flushed_eq (c : Dev nD) (t : Fin cfg0.N) (hf : (cfg0.win 2).flush t = true) :
    (dats m 0 c).flushed 2 t = ((cfg0.win 2).blk t).view.read (Elt F) (G m c) := by
  have h7 : t.val % 8 = 7 := (flush0_2 t).mp hf
  obtain ⟨e0, e1, e2⟩ := idx_facts t
  show (cfg0.win 2).cut (grid0.coords t) ((dats m 0 c).after 2 t) = _
  rw [after0_2]
  funext j
  show (outsAt0 m c t.val t.isLt).1 ((cfg0.win 2).xinj (grid0.coords t) j)
    = (outsAt0 m c (8 * ((((cfg0.win 2).blk t).view.emb j) 0).val + 7) _).1
        (ix3 (0 : Fin 1) ((((cfg0.win 2).blk t).view.emb j) 1) ((((cfg0.win 2).blk t).view.emb j) 2))
  have k0 : ((((cfg0.win 2).blk t).view.emb j) 0).val = win0_2.index t (0 : Fin 3) * 1 + 1 * (j 0).val := rfl
  have k1 : ((((cfg0.win 2).blk t).view.emb j) 1).val = win0_2.index t (1 : Fin 3) * 8 + 1 * (j 1).val := rfl
  have k2 : ((((cfg0.win 2).blk t).view.emb j) 2).val = win0_2.index t (2 : Fin 3) * 128 + 1 * (j 2).val := rfl
  have hj0 : (j 0).val < 1 := (j 0).isLt
  have hj1 : (j 1).val < 8 := (j 1).isLt
  have hj2 : (j 2).val < 128 := (j 2).isLt
  rw [outsAt0_congr m c (by omega : 8 * ((((cfg0.win 2).blk t).view.emb j) 0).val + 7 = t.val) _ t.isLt]
  refine congrArg (outsAt0 m c t.val t.isLt).1 ?_
  funext a
  apply Fin.ext
  match a with
  | ⟨0, _⟩ => show (j 0).val = 0; omega
  | ⟨1, _⟩ => show (j 1).val = ((((cfg0.win 2).blk t).view.emb j) 1).val; omega
  | ⟨2, _⟩ => show (j 2).val = ((((cfg0.win 2).blk t).view.emb j) 2).val; omega

/-- An index of the array is in point t's block iff each coordinate is in the block's range on its axis. -/
theorem mem_blk (t : Fin cfg0.N) (i : S2x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v2).slice (win0_2.rect t)).set ↔ _
  rw [View.set_slice_whole, Rect.mem_set_unit]
  exact Iff.rfl

/-- Every index (p, r, l) of the array is in the block of a point that writes back: the point 8 p + 7, whose
block index is (p, 0, 0). -/
theorem covered (i : S2x8x128.Idx) :
    ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 128 := (i 2).isLt
  refine ⟨⟨8 * (i 0).val + 7, pt_lt hi0⟩, (flush0_2 _).mpr (by show (8 * (i 0).val + 7) % 8 = 7; omega), ?_⟩
  obtain ⟨e0, e1, e2⟩ := idx_facts ⟨8 * (i 0).val + 7, pt_lt hi0⟩
  have e0' : win0_2.index ⟨8 * (i 0).val + 7, pt_lt hi0⟩ (0 : Fin 3) = (8 * (i 0).val + 7) / 8 := e0
  rw [mem_blk]
  intro a
  match a with
  | ⟨0, _⟩ =>
    show win0_2.index ⟨8 * (i 0).val + 7, pt_lt hi0⟩ (0 : Fin 3) * 1 ≤ (i 0).val
      ∧ (i 0).val < win0_2.index ⟨8 * (i 0).val + 7, pt_lt hi0⟩ (0 : Fin 3) * 1 + 1
    omega
  | ⟨1, _⟩ =>
    show win0_2.index ⟨8 * (i 0).val + 7, pt_lt hi0⟩ (1 : Fin 3) * 8 ≤ (i 1).val
      ∧ (i 1).val < win0_2.index ⟨8 * (i 0).val + 7, pt_lt hi0⟩ (1 : Fin 3) * 8 + 8
    omega
  | ⟨2, _⟩ =>
    show win0_2.index ⟨8 * (i 0).val + 7, pt_lt hi0⟩ (2 : Fin 3) * 128 ≤ (i 2).val
      ∧ (i 2).val < win0_2.index ⟨8 * (i 0).val + 7, pt_lt hi0⟩ (2 : Fin 3) * 128 + 128
    omega

/-- After the run the output array holds G: the two points that write back, 7 and 15, write the blocks 0 and 1
of G, and these two blocks are the whole array. -/
theorem final_out (c : Dev nD) : (dats m 0 c).arrAt 2 cfg0.N = G m c :=
  (dats m 0 c).arrAt_eq_of_cover 2 (G m c) (flushed_eq m c) covered

/-- The same, entry by entry. -/
theorem final_out_apply (c : Dev nD) (p : Fin 2) (r : Fin 8) (l : Fin 128) (h : 8 * p.val + 7 < cfg0.N) :
    (dats m 0 c).arrAt 2 cfg0.N (ix3 p r l) = (outsAt0 m c (8 * p.val + 7) h).1 (ix3 (0 : Fin 1) r l) := by
  rw [final_out]
  rfl

end Cert.KernelIdeal.Final
end
-- ==== Proof.RefValue.lean ====
/-
  The reference program read as a value: its scalar result is the sum, over the grid positions `j`, of the per-position
  value `refCol` of the ensemble column above `j` and the observation at `j`, started from `0` and divided by the
  number of positions `524288` (the f32 word `0x49000000`).

  The stage that needs an argument of its own is the sum over the two leading axes of the array of absolute pair differences
  `|Y a - Y b|`, of shape [20, 20, 4, 1, 8, 128, 128]: the indices of that array lying above a position `j` are exactly
  the `(a, b, j0, j1, j2, j3, j4)`, one for each pair `(a, b)`, so the sum above `j` is the double sum over `a` and `b`.
-/
import proofs.«110418_j51625506898387_2_alg».proof.Proof.Gen.ReferenceIdeal.Read
import proofs.«110418_j51625506898387_2_alg».proof.Proof.CrpsSpec

noncomputable section

open scoped BigOperators

namespace Cert.RefValue

open Cert.ReferenceIdeal Cert.ReferenceIdeal.Read Cert.CrpsSpec Idealize.ShloMosaic

variable [Cert.ReferenceIdeal.Facts]

/-- The ensemble column above position `j`: member `n` of the twenty, and `0` past them. The index
    `idx_main_v4 j k` is `(k, j0, j1, j2, j3, j4)`. -/
def colR (x0 : (⟨S20x4x1x8x128x128, .f32⟩ : BufTy).Contents (Elt Ideal)) (j : S4x1x8x128x128.Idx) (n : ℕ) : EReal :=
  if h : n < 20 then x0 (idx_main_v4 j ⟨n, h⟩) else 0

/-- The index `(a, b, j0, j1, j2, j3, j4)` of the pair array. -/
def pairIdx (j : S4x1x8x128x128.Idx) (a b : Fin 20) : S20x20x4x1x8x128x128.Idx := fun c => match c with
  | ⟨0, _⟩ => ⟨a.val, a.isLt⟩
  | ⟨1, _⟩ => ⟨b.val, b.isLt⟩
  | ⟨2, _⟩ => ⟨(j 0).val, (j 0).isLt⟩
  | ⟨3, _⟩ => ⟨(j 1).val, (j 1).isLt⟩
  | ⟨4, _⟩ => ⟨(j 2).val, (j 2).isLt⟩
  | ⟨5, _⟩ => ⟨(j 3).val, (j 3).isLt⟩
  | ⟨6, _⟩ => ⟨(j 4).val, (j 4).isLt⟩

/-- The second axis of a position has extent one: its coordinate is `0`. -/
theorem pos_axis1 (j : S4x1x8x128x128.Idx) : (j 1).val = 0 := by
  have h : (j 1).val < 1 := (j 1).isLt
  omega

/-- The pair array at `(a, b, j…)` is `|Y a - Y b|` for the column `Y` above `j`. -/
theorem val_main_v12_pair (x0 : (⟨S20x4x1x8x128x128, .f32⟩ : BufTy).Contents (Elt Ideal)) (j : S4x1x8x128x128.Idx)
    (a b : Fin 20) :
    val_main_v12 (F := Ideal) x0 (pairIdx j a b) = eabs (colR x0 j a.val - colR x0 j b.val) := by
  have hj := pos_axis1 j
  have ea : idx_main_v7 (idx_main_v9 (pairIdx j a b)) = idx_main_v4 j a :=
    funext fun c => Fin.ext (by
      match c with
      | ⟨0, _⟩ => rfl
      | ⟨1, _⟩ => rfl
      | ⟨2, _⟩ => exact hj.symm
      | ⟨3, _⟩ => rfl
      | ⟨4, _⟩ => rfl
      | ⟨5, _⟩ => rfl)
  have eb : idx_main_v8 (idx_main_v10 (pairIdx j a b)) = idx_main_v4 j b :=
    funext fun c => Fin.ext (by
      match c with
      | ⟨0, _⟩ => rfl
      | ⟨1, _⟩ => rfl
      | ⟨2, _⟩ => exact hj.symm
      | ⟨3, _⟩ => rfl
      | ⟨4, _⟩ => rfl
      | ⟨5, _⟩ => rfl)
  rw [val_main_v12_apply, val_main_v11_apply, val_main_v9_apply, val_main_v7_apply, val_main_v10_apply,
    val_main_v8_apply, ea, eb, Ideal.hostAbsf_def, Ideal.absf_def, Ideal.subf_def]
  unfold eabs colR
  rw [dif_pos a.isLt, dif_pos b.isLt]

/-- The indices of the pair array above `j` are the `(a, b, j…)`. -/
theorem filter_drop_eq_image (j : S4x1x8x128x128.Idx) :
    (Finset.univ.filter fun I : S20x20x4x1x8x128x128.Idx =>
        (Facts₀.reducesTo_S20x20x4x1x8x128x128_S4x1x8x128x128_d0_1).drop I = j)
      = (Finset.univ : Finset (Fin 20 × Fin 20)).image (fun p => pairIdx j p.1 p.2) := by
  ext I
  simp only [Finset.mem_filter, Finset.mem_univ, true_and, Finset.mem_image]
  constructor
  · intro hI
    refine ⟨(⟨(I 0).val, (I 0).isLt⟩, ⟨(I 1).val, (I 1).isLt⟩), ?_⟩
    have d0 := Shape.ReducesTo.drop_apply_val_of_eq Facts₀.reducesTo_S20x20x4x1x8x128x128_S4x1x8x128x128_d0_1 I 0 2
    have d1 := Shape.ReducesTo.drop_apply_val_of_eq Facts₀.reducesTo_S20x20x4x1x8x128x128_S4x1x8x128x128_d0_1 I 1 3
    have d2 := Shape.ReducesTo.drop_apply_val_of_eq Facts₀.reducesTo_S20x20x4x1x8x128x128_S4x1x8x128x128_d0_1 I 2 4
    have d3 := Shape.ReducesTo.drop_apply_val_of_eq Facts₀.reducesTo_S20x20x4x1x8x128x128_S4x1x8x128x128_d0_1 I 3 5
    have d4 := Shape.ReducesTo.drop_apply_val_of_eq Facts₀.reducesTo_S20x20x4x1x8x128x128_S4x1x8x128x128_d0_1 I 4 6
    rw [hI] at d0 d1 d2 d3 d4
    exact funext fun c => Fin.ext (by
      match c with
      | ⟨0, _⟩ => rfl
      | ⟨1, _⟩ => rfl
      | ⟨2, _⟩ => exact d0
      | ⟨3, _⟩ => exact d1
      | ⟨4, _⟩ => exact d2
      | ⟨5, _⟩ => exact d3
      | ⟨6, _⟩ => exact d4)
  · rintro ⟨p, rfl⟩
    exact funext fun b => Fin.ext (by
      match b with
      | ⟨0, _⟩ => exact Shape.ReducesTo.drop_apply_val_of_eq Facts₀.reducesTo_S20x20x4x1x8x128x128_S4x1x8x128x128_d0_1 (pairIdx j p.1 p.2) 0 2
      | ⟨1, _⟩ => exact Shape.ReducesTo.drop_apply_val_of_eq Facts₀.reducesTo_S20x20x4x1x8x128x128_S4x1x8x128x128_d0_1 (pairIdx j p.1 p.2) 1 3
      | ⟨2, _⟩ => exact Shape.ReducesTo.drop_apply_val_of_eq Facts₀.reducesTo_S20x20x4x1x8x128x128_S4x1x8x128x128_d0_1 (pairIdx j p.1 p.2) 2 4
      | ⟨3, _⟩ => exact Shape.ReducesTo.drop_apply_val_of_eq Facts₀.reducesTo_S20x20x4x1x8x128x128_S4x1x8x128x128_d0_1 (pairIdx j p.1 p.2) 3 5
      | ⟨4, _⟩ => exact Shape.ReducesTo.drop_apply_val_of_eq Facts₀.reducesTo_S20x20x4x1x8x128x128_S4x1x8x128x128_d0_1 (pairIdx j p.1 p.2) 4 6)

/-- Distinct pairs give distinct indices. -/
theorem pairIdx_injective (j : S4x1x8x128x128.Idx) :
    Function.Injective (fun p : Fin 20 × Fin 20 => pairIdx j p.1 p.2) := by
  rintro ⟨a, b⟩ ⟨a', b'⟩ h
  have h0 : (pairIdx j a b 0).val = (pairIdx j a' b' 0).val := congrArg Fin.val (congrFun h 0)
  have h1 : (pairIdx j a b 1).val = (pairIdx j a' b' 1).val := congrArg Fin.val (congrFun h 1)
  exact Prod.ext (Fin.ext h0) (Fin.ext h1)

/-- The sum over the two leading axes, read at a position: `0` plus the sum of `|Y a - Y b|` over all ordered pairs
    of members of the column `Y` above `j`. -/
theorem val_main_v13_apply (x0 : (⟨S20x4x1x8x128x128, .f32⟩ : BufTy).Contents (Elt Ideal)) (j : S4x1x8x128x128.Idx) :
    val_main_v13 (F := Ideal) x0 j
      = 0 + ∑ a ∈ Finset.range 20, ∑ b ∈ Finset.range 20, eabs (colR x0 j a - colR x0 j b) := by
  unfold val_main_v13
  simp only [Host.reduceAdd, Ideal.hostReduceAdd_def]
  unfold Ideal.hostReduceAdd
  rw [filter_drop_eq_image, Finset.sum_image (fun p _ q _ h => pairIdx_injective j h), Fintype.sum_prod_type,
    val_main_cst_1_apply, Ideal.ofBits_def, Ideal.ofBits_zero_f32,
    ← Fin.sum_univ_eq_sum_range (fun a => ∑ b ∈ Finset.range 20, eabs (colR x0 j a - colR x0 j b)) 20]
  refine congrArg (0 + ·) (Finset.sum_congr rfl fun a _ => ?_)
  rw [← Fin.sum_univ_eq_sum_range (fun b => eabs (colR x0 j a.val - colR x0 j b)) 20]
  exact Finset.sum_congr rfl fun b _ => val_main_v12_pair x0 j a b

/-- The array of absolute errors at `(k, j…)` is `|Y k - o|` for the column `Y` above `j` and the observation `o`
    at `j`. -/
theorem val_main_v3_col (x0 : (⟨S20x4x1x8x128x128, .f32⟩ : BufTy).Contents (Elt Ideal))
    (x1 : (⟨S4x1x8x128x128, .f32⟩ : BufTy).Contents (Elt Ideal)) (j : S4x1x8x128x128.Idx) (k : Fin 20) :
    val_main_v3 (F := Ideal) x0 x1 (idx_main_v4 j k) = eabs (colR x0 j k.val - x1 j) := by
  have hj := pos_axis1 j
  have e : idx_main_v0 (idx_main_v1 (idx_main_v4 j k)) = j :=
    funext fun c => Fin.ext (by
      match c with
      | ⟨0, _⟩ => rfl
      | ⟨1, _⟩ => exact hj.symm
      | ⟨2, _⟩ => rfl
      | ⟨3, _⟩ => rfl
      | ⟨4, _⟩ => rfl)
  rw [val_main_v3_apply, val_main_v2_apply, val_main_v1_apply, val_main_v0_apply, e, Ideal.hostAbsf_def,
    Ideal.absf_def, Ideal.subf_def]
  unfold eabs colR
  rw [dif_pos k.isLt]

/-- The per-position array: at `j` it is the reference's per-position value of the column above `j` and the
    observation at `j`. -/
theorem val_main_v18_col (x0 : (⟨S20x4x1x8x128x128, .f32⟩ : BufTy).Contents (Elt Ideal))
    (x1 : (⟨S4x1x8x128x128, .f32⟩ : BufTy).Contents (Elt Ideal)) (j : S4x1x8x128x128.Idx) :
    val_main_v18 (F := Ideal) x0 x1 j = refCol (colR x0 j) (x1 j) := by
  have hs : ∑ k : Fin 20, val_main_v3 (F := Ideal) x0 x1 (idx_main_v4 j k)
      = ∑ k ∈ Finset.range 20, eabs (colR x0 j k - x1 j) := by
    rw [← Fin.sum_univ_eq_sum_range (fun k => eabs (colR x0 j k - x1 j)) 20]
    exact Finset.sum_congr rfl fun k _ => val_main_v3_col x0 x1 j k
  rw [val_main_v18_apply, val_main_v6_apply, val_main_v4_apply, hs, val_main_v5_apply, val_main_cst_0_apply,
    val_main_cst_apply, val_main_v17_apply, val_main_v15_apply, val_main_v13_apply, val_main_v14_apply,
    val_main_cst_2_apply, val_main_v16_apply, val_main_cst_3_apply]
  simp only [Ideal.subf_def, Ideal.hostDivf_def, Ideal.mulf_def, Ideal.ofBits_def, Ideal.ofBits_zero_f32]
  rfl

/-- The reference's result: the sum over the positions of the per-position value, from `0`, divided by the number of
    positions. -/
theorem ref_value (x0 : (⟨S20x4x1x8x128x128, .f32⟩ : BufTy).Contents (Elt Ideal))
    (x1 : (⟨S4x1x8x128x128, .f32⟩ : BufTy).Contents (Elt Ideal)) (i : S_.Idx) :
    val_main_v20 (F := Ideal) x0 x1 i
      = Ideal.div (0 + ∑ j : S4x1x8x128x128.Idx, refCol (colR x0 j) (x1 j)) (Ideal.ofBits .f32 0x49000000#32) := by
  rw [val_main_v20_apply, val_main_v19_apply, val_main_cst_5_apply, val_main_cst_4_apply]
  simp only [Ideal.hostDivf_def, Ideal.ofBits_def, Ideal.ofBits_zero_f32]
  exact congrArg (fun s => Ideal.div (0 + s) _) (Finset.sum_congr rfl fun j _ => val_main_v18_col x0 x1 j)

end Cert.RefValue

end
-- ==== Proof.Flatten.lean ====
/-
  The two enumerations of the 524288 grid positions agree.

  One program flattens the forecasts [20, 4, 1, 8, 128, 128] to [20, 524288] and the observations [4, 1, 8, 128, 128] to
  [1, 524288] in row-major order; the other sums over the multi-indices of [4, 1, 8, 128, 128]. Row-major numbering
  `flat5` is a bijection between those multi-indices and the numbers below 524288, and under it member `k` of the
  flattened forecasts at column `n` is the forecast at `(k, j0, …, j4)` for the position `j` numbered `n`:
  the row-major number of `(k, j…)` is `k * 524288` plus that of `j`.
-/
import proofs.«110418_j51625506898387_2_alg».proof.Proof.RefValue
import Idealize.ShloMosaic.Lib.ValueIdx
import Idealize.ShloMosaic.Lib.Pipeline.Value

noncomputable section

open scoped BigOperators

namespace Cert.Flatten

open Idealize.ShloMosaic Idealize.ShloMosaic.ValueIdx

/-- The grid of positions. -/
abbrev S5 : Shape := ⟨5, ![4, 1, 8, 128, 128]⟩
/-- The forecasts: twenty members above every position. -/
abbrev S6 : Shape := ⟨6, ![20, 4, 1, 8, 128, 128]⟩

/-- The grid has `4 * 1 * 8 * 128 * 128 = 524288` positions. -/
theorem numel_S5 : S5.numel = 524288 := by
  simp [Shape.numel, Fin.prod_univ_succ]

/-- Row-major numbering of the positions. -/
def flat5 : S5.Idx ≃ Fin 524288 := S5.rowMajor.trans (finCongr numel_S5)

theorem flat5_val (j : S5.Idx) : (flat5 j).val = (S5.rowMajor j).val := rfl

/-- A sum over the positions is the sum over their numbers. -/
theorem sum_flat5 {M : Type*} [AddCommMonoid M] (f : S5.Idx → M) :
    ∑ j : S5.Idx, f j = ∑ n : Fin 524288, f (flat5.symm n) :=
  (Equiv.sum_comp flat5.symm f).symm

/-- The row-major number of `(k, j0, …, j4)` among the forecasts is `k * 524288` plus that of `j` in the grid. -/
theorem rowMajor_member (j : S5.Idx) (k : Fin 20) :
    (S6.rowMajor (Cert.ReferenceIdeal.Read.idx_main_v4 j k)).val = k.val * 524288 + (S5.rowMajor j).val := by
  have h := Shape.rowMajor_val_succ (n := 5) (d := ![20, 4, 1, 8, 128, 128]) (Cert.ReferenceIdeal.Read.idx_main_v4 j k)
  have e : (fun a : Fin 5 => Cert.ReferenceIdeal.Read.idx_main_v4 j k a.succ) = j :=
    funext fun a => Fin.ext (by
      match a with
      | ⟨0, _⟩ => rfl
      | ⟨1, _⟩ => rfl
      | ⟨2, _⟩ => rfl
      | ⟨3, _⟩ => rfl
      | ⟨4, _⟩ => rfl)
  rw [e] at h
  exact h.trans (congrArg (fun m => k.val * m + (S5.rowMajor j).val) numel_S5)

/-- The flattened forecasts at `(k, n)`: the forecast of member `k` at the position numbered `n`. -/
theorem reshape_arg0 {α : Type} (x0 : S6.Idx → α) (h : S6.ShapeCasts ⟨2, ![20, 524288]⟩) (k : Fin 20) (n : Fin 524288) :
    shapeCast ⟨2, ![20, 524288]⟩ x0 h (ix2 k n)
      = x0 (Cert.ReferenceIdeal.Read.idx_main_v4 (flat5.symm n) k) := by
  refine shapeCast_apply x0 h (ix2 k n) _ ?_
  rw [rowMajor_member, Shape.rowMajor_val_two, ← flat5_val, Equiv.apply_symm_apply]
  rfl

/-- The row-major number of a position in the grid is its number in the one-row flattening. -/
theorem reshape_arg1 {α : Type} (x1 : S5.Idx → α) (h : S5.ShapeCasts ⟨2, ![1, 524288]⟩) (n : Fin 524288) :
    shapeCast ⟨2, ![1, 524288]⟩ x1 h (ix2 0 n) = x1 (flat5.symm n) := by
  refine shapeCast_apply x1 h (ix2 0 n) _ ?_
  rw [Shape.rowMajor_val_two, ← flat5_val, Equiv.apply_symm_apply]
  show n.val = 0 * 524288 + n.val
  omega

end Cert.Flatten

end
-- ==== Proof.CrpsAlgebra.lean ====
/-
  The algebra behind the equality of the two per-position formulas, and the bookkeeping identities for the
  sums over positions.

  * Over the reals, the sum of |y a - y b| over ALL ordered pairs (a, b) of indices below n is twice the sum
    over the pairs i < j: the diagonal contributes nothing and |y a - y b| is symmetric.
  * On finite inputs every quantity in the two per-position formulas is (the image of) a real number, the three
    float words are the reals 20, 400 and 1/2, and the two formulas differ exactly by that factor of two:
    (1/400) · S_upper = (1/400) · (2 · S_upper) · (1/2).
  * Sixteen consecutive blocks of 32768 positions, taken as eight and eight, are all 524288 positions.
-/
import proofs.«110418_j51625506898387_2_alg».proof.Proof.CrpsSpec

noncomputable section

open scoped BigOperators
open Finset

namespace Cert.CrpsAlgebra

open Cert.CrpsSpec Idealize.ShloMosaic

/-! ### The double sum of absolute differences -/

/-- The sum of |y a - y b| over all ordered pairs of indices below n is twice the sum over the pairs i < j.
Adding the point n to the index set adds, on the left, the row ∑_{b<n} |y n - y b|, the column
∑_{a<n} |y a - y n| (equal to the row, by symmetry of the absolute difference) and the vanishing diagonal
term |y n - y n|; on the right it adds the term |y n - y i| to each of the rows i < n. -/
theorem sum_sum_abs_sub (y : ℕ → ℝ) (n : ℕ) :
    ∑ a ∈ range n, ∑ b ∈ range n, |y a - y b|
      = 2 * ∑ i ∈ range n, ∑ j ∈ Ico (i + 1) n, |y j - y i| := by
  induction n with
  | zero => simp
  | succ n ih =>
    have hR : ∀ i ∈ range n, ∑ j ∈ Ico (i + 1) (n + 1), |y j - y i|
        = ∑ j ∈ Ico (i + 1) n, |y j - y i| + |y n - y i| := by
      intro i hi
      have hi' : i + 1 ≤ n := by have := Finset.mem_range.mp hi; omega
      exact Finset.sum_Ico_succ_top hi' _
    have hsymm : ∑ a ∈ range n, |y a - y n| = ∑ a ∈ range n, |y n - y a| :=
      Finset.sum_congr rfl (fun a _ => abs_sub_comm _ _)
    rw [Finset.sum_range_succ (fun i => ∑ j ∈ Ico (i + 1) (n + 1), |y j - y i|),
      Finset.sum_congr rfl hR]
    simp only [Finset.sum_range_succ, Finset.sum_add_distrib, Finset.Ico_self, Finset.sum_empty,
      sub_self, abs_zero, add_zero]
    rw [ih, hsymm]
    ring

/-- The case n = 20 with row i written as the 19 - i pairs (i, i + 1 + k): the row i = 19 is empty. -/
theorem pairs_upper (y : ℕ → ℝ) :
    ∑ a ∈ range 20, ∑ b ∈ range 20, |y a - y b|
      = 2 * ∑ i ∈ range 19, ∑ k ∈ range (19 - i), |y (i + 1 + k) - y i| := by
  rw [sum_sum_abs_sub y 20, Finset.sum_range_succ (fun i => ∑ j ∈ Ico (i + 1) 20, |y j - y i|)]
  have hrow : ∀ i ∈ range 19, ∑ j ∈ Ico (i + 1) 20, |y j - y i|
      = ∑ k ∈ range (19 - i), |y (i + 1 + k) - y i| := by
    intro i _
    rw [Finset.sum_Ico_eq_sum_range]
    have h : 20 - (i + 1) = 19 - i := by omega
    rw [h]
  rw [Finset.sum_congr rfl hrow, Finset.Ico_self, Finset.sum_empty, add_zero]

/-! ### From the extended reals to the reals -/

/-- The embedding of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On real numbers the extended-real absolute value max z (-z) of a difference is the real absolute value. -/
theorem eabs_coe (u v : ℝ) : eabs ((u : EReal) - (v : EReal)) = ((|u - v| : ℝ) : EReal) := by
  unfold eabs
  rw [← EReal.coe_sub, ← EReal.coe_neg, abs_eq_max_neg]
  exact (EReal.coe_strictMono.monotone.map_max).symm

/-- The word 0x41A00000 is the number 20. -/
theorem w20 : Ideal.ofBits .f32 0x41A00000#32 = ((20 : ℝ) : EReal) := by
  simp [Ideal.ofBits, Ideal.ieee, -EReal.coe_mul]; norm_num

/-- The word 0x43C80000 is the number 400. -/
theorem w400 : Ideal.ofBits .f32 0x43C80000#32 = ((400 : ℝ) : EReal) := by
  simp [Ideal.ofBits, Ideal.ieee, -EReal.coe_mul]; norm_num

/-- The word 0x3F000000 is the number 1/2. -/
theorem whalf : Ideal.ofBits .f32 0x3F000000#32 = ((1 / 2 : ℝ) : EReal) := by
  simp [Ideal.ofBits, Ideal.ieee, -EReal.coe_mul]; norm_num

/-- On a finite column and a finite observation the two per-position formulas agree. Every absolute difference
is a real number, so both formulas are images of real expressions; the first terms coincide, and the second
terms are (1/400) · U and (1/400) · A · (1/2), where A, the sum over all ordered pairs, is 2 · U, twice the
sum over the pairs i < j. -/
theorem kerCol_eq_refCol (Y : ℕ → EReal) (o : EReal)
    (hY : ∀ k, k < 20 → ∃ r : ℝ, Y k = (r : EReal)) (ho : ∃ s : ℝ, o = (s : EReal)) :
    kerCol Y o = refCol Y o := by
  obtain ⟨s, rfl⟩ := ho
  have hy : ∀ k, k < 20 → Y k = (((Y k).toReal : ℝ) : EReal) := by
    intro k hk
    obtain ⟨r, hr⟩ := hY k hk
    rw [hr, EReal.toReal_coe]
  generalize hydef : (fun k => (Y k).toReal) = y at *
  have hy' : ∀ k, k < 20 → Y k = ((y k : ℝ) : EReal) := by
    intro k hk; rw [← hydef]; exact hy k hk
  have h1 : ∑ k ∈ range 20, eabs (Y k - (s : EReal))
      = ((∑ k ∈ range 20, |y k - s| : ℝ) : EReal) := by
    rw [coe_sum]
    refine Finset.sum_congr rfl (fun k hk => ?_)
    rw [hy' k (Finset.mem_range.mp hk), eabs_coe]
  have h2 : ∑ i ∈ range 19, ∑ k ∈ range (19 - i), eabs (Y (i + 1 + k) - Y i)
      = ((∑ i ∈ range 19, ∑ k ∈ range (19 - i), |y (i + 1 + k) - y i| : ℝ) : EReal) := by
    rw [coe_sum]
    refine Finset.sum_congr rfl (fun i hi => ?_)
    rw [coe_sum]
    refine Finset.sum_congr rfl (fun k hk => ?_)
    have hi' := Finset.mem_range.mp hi
    have hk' := Finset.mem_range.mp hk
    rw [hy' (i + 1 + k) (by omega), hy' i (by omega), eabs_coe]
  have h3 : ∑ a ∈ range 20, ∑ b ∈ range 20, eabs (Y a - Y b)
      = ((∑ a ∈ range 20, ∑ b ∈ range 20, |y a - y b| : ℝ) : EReal) := by
    rw [coe_sum]
    refine Finset.sum_congr rfl (fun a ha => ?_)
    rw [coe_sum]
    refine Finset.sum_congr rfl (fun b hb => ?_)
    rw [hy' a (Finset.mem_range.mp ha), hy' b (Finset.mem_range.mp hb), eabs_coe]
  unfold kerCol refCol
  rw [h1, h2, h3, w20, w400, whalf, zero_add, zero_add,
    Ideal.div_coe (by norm_num : (20 : ℝ) ≠ 0), Ideal.div_coe (by norm_num : (400 : ℝ) ≠ 0),
    Ideal.div_coe (by norm_num : (400 : ℝ) ≠ 0), pairs_upper]
  simp only [← EReal.coe_mul, ← EReal.coe_sub]
  congr 1
  ring

/-! ### Sums over positions -/

/-- A sum over the first a * b naturals, cut into a consecutive blocks of b positions: block t holds the
positions t * b + q with q < b. Adding one more block appends the b positions after the first a * b. -/
theorem sum_range_mul (g : ℕ → EReal) (a b : ℕ) :
    ∑ n ∈ range (a * b), g n = ∑ t ∈ range a, ∑ q ∈ range b, g (t * b + q) := by
  induction a with
  | zero => simp
  | succ a ih =>
    rw [Nat.succ_mul, Finset.sum_range_add, ih, Finset.sum_range_succ]

/-- Sixteen consecutive blocks of 32768 positions, taken as the first eight and the last eight, are all
524288 = 16 · 32768 positions. The extended reals are an additive commutative monoid, so this is pure
reindexing of finite sums. -/
theorem tiles_sum (g : ℕ → EReal) :
    (∑ t ∈ range 8, ∑ q : Fin 32768, g (t * 32768 + q.val))
      + (∑ t ∈ range 8, ∑ q : Fin 32768, g ((8 + t) * 32768 + q.val))
      = 0 + ∑ n : Fin 524288, g n.val := by
  have hfin : ∀ c : ℕ, ∑ q : Fin 32768, g (c + q.val) = ∑ q ∈ range 32768, g (c + q) :=
    fun c => Fin.sum_univ_eq_sum_range (fun q => g (c + q)) 32768
  have hall : ∑ n : Fin 524288, g n.val = ∑ n ∈ range 524288, g n :=
    Fin.sum_univ_eq_sum_range g 524288
  have h16 : (524288 : ℕ) = (8 + 8) * 32768 := by norm_num
  rw [zero_add, hall, h16, sum_range_mul, Finset.sum_range_add]
  simp only [hfin]

/-- Eight terms added one after another, starting from zero, are the sum over the eight indices. -/
theorem accum8 (S : ℕ → EReal) (base : ℕ) :
    ((((((((0 + S (base + 0)) + S (base + 1)) + S (base + 2)) + S (base + 3)) + S (base + 4))
      + S (base + 5)) + S (base + 6)) + S (base + 7)) = ∑ t ∈ range 8, S (base + t) := by
  simp [Finset.sum_range_succ]

end Cert.CrpsAlgebra

end
-- ==== Proof.Bridge.lean ====
/-
  The last step of the comparison: the kernel's accumulated sum over the sixteen tiles of 32768 flat positions, of its
  per-position value, is the reference's sum over the grid positions of its per-position value.

  Three facts compose. The sixteen tiles, in two groups of eight, enumerate the flat positions `0, …, 524287` once each.
  Row-major numbering matches the flat positions with the grid's multi-indices, and under it the flattened forecasts
  and observations at flat position `n` are the column and the observation at the position numbered `n`. At real
  (finite) data the two per-position formulas agree.
-/
import proofs.«110418_j51625506898387_2_alg».proof.Proof.Flatten
import proofs.«110418_j51625506898387_2_alg».proof.Proof.CrpsAlgebra

noncomputable section

open scoped BigOperators

namespace Cert.Bridge

open Idealize.ShloMosaic Idealize.ShloMosaic.ValueIdx Cert.CrpsSpec Cert.Flatten Cert.RefValue

/-- The ensemble column of the flattened forecasts [20, 524288] at flat position `n`, as a sequence (`0` past the
    twenty members). -/
def posCol (X : (⟨2, ![20, 524288]⟩ : Shape).Idx → EReal) (n : Fin 524288) (k : ℕ) : EReal :=
  if h : k < 20 then X (ix2 ⟨k, h⟩ n) else 0

/-- The kernel's per-position value at flat position `n` (`0` past the last position). -/
def posVal (X : (⟨2, ![20, 524288]⟩ : Shape).Idx → EReal) (O : (⟨2, ![1, 524288]⟩ : Shape).Idx → EReal) (n : ℕ) :
    EReal :=
  if h : n < 524288 then kerCol (posCol X ⟨n, h⟩) (O (ix2 0 ⟨n, h⟩)) else 0

variable [Cert.ReferenceIdeal.Facts]

/-- The column of the flattened forecasts at flat position `n` is the column above the position numbered `n`. -/
theorem posCol_reshape (x0 : S6.Idx → EReal) (h0 : S6.ShapeCasts ⟨2, ![20, 524288]⟩) (n : Fin 524288) :
    posCol (shapeCast ⟨2, ![20, 524288]⟩ x0 h0) n = colR x0 (flat5.symm n) := by
  funext k
  unfold posCol colR
  by_cases hk : k < 20
  · rw [dif_pos hk, dif_pos hk, reshape_arg0]
  · rw [dif_neg hk, dif_neg hk]

/-- At real data, the kernel's value at flat position `n` is the reference's value at the position numbered `n`. -/
theorem posVal_reshape (x0 : S6.Idx → EReal) (x1 : S5.Idx → EReal) (fin0 : ∀ i, ∃ r : ℝ, x0 i = (r : EReal))
    (fin1 : ∀ j, ∃ r : ℝ, x1 j = (r : EReal)) (h0 : S6.ShapeCasts ⟨2, ![20, 524288]⟩)
    (h1 : S5.ShapeCasts ⟨2, ![1, 524288]⟩) (n : Fin 524288) :
    posVal (shapeCast ⟨2, ![20, 524288]⟩ x0 h0) (shapeCast ⟨2, ![1, 524288]⟩ x1 h1) n.val
      = refCol (colR x0 (flat5.symm n)) (x1 (flat5.symm n)) := by
  unfold posVal
  rw [dif_pos n.isLt]
  show kerCol (posCol (shapeCast ⟨2, ![20, 524288]⟩ x0 h0) n) (shapeCast ⟨2, ![1, 524288]⟩ x1 h1 (ix2 0 n)) = _
  rw [posCol_reshape, reshape_arg1]
  refine Cert.CrpsAlgebra.kerCol_eq_refCol _ _ (fun k hk => ?_) (fin1 _)
  unfold colR
  rw [dif_pos hk]
  exact fin0 _

/-- The kernel's sum over its sixteen tiles is the reference's sum over the grid, both from `0`. -/
theorem bridge (x0 : S6.Idx → EReal) (x1 : S5.Idx → EReal) (fin0 : ∀ i, ∃ r : ℝ, x0 i = (r : EReal))
    (fin1 : ∀ j, ∃ r : ℝ, x1 j = (r : EReal)) (h0 : S6.ShapeCasts ⟨2, ![20, 524288]⟩)
    (h1 : S5.ShapeCasts ⟨2, ![1, 524288]⟩) :
    (∑ t ∈ Finset.range 8, ∑ q : Fin 32768,
        posVal (shapeCast ⟨2, ![20, 524288]⟩ x0 h0) (shapeCast ⟨2, ![1, 524288]⟩ x1 h1) (t * 32768 + q.val))
      + (∑ t ∈ Finset.range 8, ∑ q : Fin 32768,
        posVal (shapeCast ⟨2, ![20, 524288]⟩ x0 h0) (shapeCast ⟨2, ![1, 524288]⟩ x1 h1) ((8 + t) * 32768 + q.val))
      = 0 + ∑ j : S5.Idx, refCol (colR x0 j) (x1 j) := by
  refine (Cert.CrpsAlgebra.tiles_sum
    (posVal (shapeCast ⟨2, ![20, 524288]⟩ x0 h0) (shapeCast ⟨2, ![1, 524288]⟩ x1 h1))).trans ?_
  rw [sum_flat5 (fun j => refCol (colR x0 j) (x1 j))]
  exact congrArg (0 + ·) (Finset.sum_congr rfl fun n _ => posVal_reshape x0 x1 fin0 fin1 h0 h1 n)

end Cert.Bridge

end
-- ==== Proof.BlockRead.lean ====
/-
  The blocks are the flat positions. At grid point `t` (of sixteen) the kernel's two windows hold column block `t` of the
  flattened forecasts [20, 524288] and of the flattened observations [1, 524288]: lane `q` of the block is flat position
  `t * 32768 + q`. So what the point adds to the accumulator — the sum over the block's lanes of the per-position value —
  is the sum of the per-position values at the flat positions `t * 32768, …, t * 32768 + 32767`.

  A block's coordinate on an axis is the block index times the block's extent plus the coordinate inside the block;
  here the block index is `(0, t)` and the extents are `(20, 32768)` and `(1, 32768)`.
-/
import proofs.«110418_j51625506898387_2_alg».proof.Proof.Gen.KernelIdeal.Frame
import proofs.«110418_j51625506898387_2_alg».proof.Proof.BlockSpec
import proofs.«110418_j51625506898387_2_alg».proof.Proof.Bridge
import Idealize.ShloMosaic.Lib.Pipeline.Value
import Idealize.ShloMosaic.Lib.ValueIdx

noncomputable section

open scoped BigOperators

namespace Cert.KernelIdeal.BlockRead

open Idealize.ShloMosaic Idealize.ShloMosaic.TcCoe Idealize.SL.Sem Idealize.ShloMosaic.ValueIdx
open Cert.KernelIdeal Cert.KernelIdeal.Gen Cert.KernelIdeal.Block Cert.Bridge Cert.CrpsSpec

variable (m : (ℓ : Loc nD τ sig) → Buf (Elt Idealize.ShloMosaic.Ideal) ℓ)

/-- At grid point `t` the forecasts' window is at block `(0, t)`. -/
theorem index0 : ∀ t : Fin cfg0.N, win0_0.index t 0 = 0 ∧ win0_0.index t 1 = t.val :=
  (by decide +kernel : ∀ t : Fin grid0.N, _)

/-- At grid point `t` the observations' window is at block `(0, t)`. -/
theorem index1 : ∀ t : Fin cfg0.N, win0_1.index t 0 = 0 ∧ win0_1.index t 1 = t.val :=
  (by decide +kernel : ∀ t : Fin grid0.N, _)

/-- Lane `q` of block `t` is a flat position: `t < 16` and `q < 32768` give `t * 32768 + q < 524288`. -/
theorem flat_lt (t : Fin cfg0.N) (q : Fin 32768) : t.val * 32768 + q.val < 524288 := by
  have hN : t.val < 16 := lt_of_lt_of_eq t.isLt (show cfg0.N = 16 from N_0)
  have hq := q.isLt
  omega

/-- The forecasts' block at point `t`, member `k`, lane `q`: the flattened forecasts at `(k, t * 32768 + q)`. -/
theorem iblk0_apply (c : Dev nD) (t : Fin cfg0.N) (k : Fin 20) (q : Fin 32768) :
    (iblk m c 0 t : Vec Idealize.ShloMosaic.Ideal S20x32768 .f32) (ix2 k q)
      = V m c main_v0 (ix2 k ⟨t.val * 32768 + q.val, flat_lt t q⟩) := by
  have hi := index0 t
  unfold iblk
  rw [View.read_apply]
  show V m c main_v0 _ = V m c main_v0 _
  congr 1
  funext a
  apply Fin.ext
  match a with
  | ⟨0, _⟩ => show win0_0.index t 0 * 20 + 1 * k.val = k.val; rw [hi.1]; omega
  | ⟨1, _⟩ => show win0_0.index t 1 * 32768 + 1 * q.val = t.val * 32768 + q.val; rw [hi.2]; omega

/-- The observations' block at point `t`, lane `q`: the flattened observations at `(0, t * 32768 + q)`. -/
theorem iblk1_apply (c : Dev nD) (t : Fin cfg0.N) (q : Fin 32768) :
    (iblk m c 1 t : Vec Idealize.ShloMosaic.Ideal S1x32768 .f32) (ix2 0 q)
      = V m c main_v1 (ix2 0 ⟨t.val * 32768 + q.val, flat_lt t q⟩) := by
  have hi := index1 t
  unfold iblk
  rw [View.read_apply]
  show V m c main_v1 _ = V m c main_v1 _
  congr 1
  funext a
  apply Fin.ext
  match a with
  | ⟨0, _⟩ => show win0_1.index t 0 * 1 + 1 * 0 = 0; rw [hi.1]
  | ⟨1, _⟩ => show win0_1.index t 1 * 32768 + 1 * q.val = t.val * 32768 + q.val; rw [hi.2]; omega

/-- The ensemble column of block `t` at lane `q` is the column of the flattened forecasts at flat position
    `t * 32768 + q`. -/
theorem colOf_iblk (c : Dev nD) (t : Fin cfg0.N) (q : Fin 32768) :
    colOf (iblk m c 0 t) q = posCol (V m c main_v0) ⟨t.val * 32768 + q.val, flat_lt t q⟩ := by
  funext n
  unfold colOf posCol
  by_cases hn : n < 20
  · rw [dif_pos hn, dif_pos hn]
    exact iblk0_apply m c t ⟨n, hn⟩ q
  · rw [dif_neg hn, dif_neg hn]

/-- What grid point `t` adds: the sum of the per-position values at the flat positions of block `t`. -/
theorem blockSum_iblk (c : Dev nD) (t : Fin cfg0.N) :
    blockSum (iblk m c 0 t) (iblk m c 1 t)
      = ∑ q : Fin 32768, posVal (V m c main_v0) (V m c main_v1) (t.val * 32768 + q.val) := by
  unfold blockSum
  refine Finset.sum_congr rfl fun q _ => ?_
  unfold posVal
  rw [dif_pos (flat_lt t q), colOf_iblk m c t q]
  exact congrArg (kerCol _) (iblk1_apply m c t q)

end Cert.KernelIdeal.BlockRead

end
-- ==== Proof.KernelHost.lean ====
/-
  The host operations around the kernel's one region, read as values.

  Before the region, each of the two arguments is reshaped to a matrix whose second axis runs over all 524288 grid
  positions: what the region finds in those two buffers is the launch contents of the arguments, re-indexed by
  row-major position. After the region, the program reads the two entries (0, 0, 0) and (1, 0, 0) of the region's
  output array, adds them, and divides the sum by the constant 524288: the result buffer holds that one number.
-/
import proofs.«110418_j51625506898387_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.Host

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F] (m : (ℓ : Loc nD τ sig) → Buf (Elt F) ℓ)

/-! ### Before the region -/

/-- The first reshape's result as the region finds it: the first argument's launch contents, re-indexed by
row-major position (no other operation before the region writes that buffer). -/
theorem V_main_v0 (c : Dev nD) :
    V m c main_v0
      = shapeCast S20x524288 (m ((c : Thread nD τ).loc main_arg0)) shapeCasts_S20x4x1x8x128x128_S20x524288 := by
  show StableHlo.after hostOps0 (fun b => m (c, b)) (Proc.devRef .tc main_v0) = _
  after_results
  rfl

/-- The second reshape's result as the region finds it: the second argument's launch contents, re-indexed by
row-major position. -/
theorem V_main_v1 (c : Dev nD) :
    V m c main_v1
      = shapeCast S1x524288 (m ((c : Thread nD τ).loc main_arg1)) shapeCasts_S4x1x8x128x128_S1x524288 := by
  show StableHlo.after hostOps0 (fun b => m (c, b)) (Proc.devRef .tc main_v1) = _
  after_results
  rfl

/-! ### After the region -/

/-- The region's output array (its window 2, of shape 2 × 8 × 128) as the run leaves it, for given proof data. -/
abbrev outArr (dats : (p : Fin 1) → (c : Dev nD) → Dat τ (Elt F) Unit ℕ (UR sig nD τ) ℕ (cfgs p) c)
    (c : Dev nD) : Vec F S2x8x128 .f32 :=
  (dats 0 c).arrAt 2 cfg0.N

/-- The result buffer after the last host operation, for any proof data of the region: the quotient by the
constant 524288 of the sum of the two scalars read — each a unit slice of the region's output array as the run
leaves it, at offsets (0, 0, 0) and (1, 0, 0), reshaped to a scalar. The output array is the region's window 2;
the operations after the region read it and write only buffers of their own. -/
theorem tail_value (dats : (p : Fin 1) → (c : Dev nD) → Dat τ (Elt F) Unit ℕ (UR sig nD τ) ℕ (cfgs p) c)
    (c : Dev nD) :
    Pipeline.afterTail₀ cfgs dats 0 (V0 m) [hostOps1] c main_v8
      = Host.divf
          (addf
            (shapeCast S_ (extractStridedSlice S1x1x1 ![0, 0, 0] (outArr dats c)
              slices_S2x8x128_S1x1x1_0_0_0) shapeCasts_S1x1x1_S_)
            (shapeCast S_ (extractStridedSlice S1x1x1 ![1, 0, 0] (outArr dats c)
              slices_S2x8x128_S1x1x1_1_0_0) shapeCasts_S1x1x1_S_))
          (constant S_ .f32 0x49000000#32) := by
  unfold Pipeline.afterTail₀
  show StableHlo.after hostOps1 _ (Proc.devRef .tc main_v8) = _
  after_results
  have hO : Pipeline.withArrays (cfgs 0).spec c (V0 m c) (fun w => (dats 0 c).arrAt w (cfgs 0).N)
        (Proc.devRef .tc main_v2)
      = (dats 0 c).arrAt 2 cfg0.N :=
    Pipeline.withArrays_arr spec0 launch0.win.arr_inj c (V0 m c) (fun w => (dats 0 c).arrAt w (cfgs 0).N) 2
  rw [hO]
  rfl

/-- On the extended reals, index by index, for any contents O of the output array: the scalar shape has one
index, at row-major position 0, which is the position of (0, 0, 0) in the unit cube; the unit slice at offset
(a, 0, 0) read there is O (a, 0, 0); the sum and the quotient are taken entrywise. -/
theorem host_tail_apply (O : Vec Ideal S2x8x128 .f32) (i : S_.Idx) :
    Host.divf (F := Ideal)
        (addf
          (shapeCast S_ (extractStridedSlice S1x1x1 ![0, 0, 0] O slices_S2x8x128_S1x1x1_0_0_0)
            shapeCasts_S1x1x1_S_)
          (shapeCast S_ (extractStridedSlice S1x1x1 ![1, 0, 0] O slices_S2x8x128_S1x1x1_1_0_0)
            shapeCasts_S1x1x1_S_))
        (constant S_ .f32 0x49000000#32) i
      = Ideal.div (O (ix3 (0 : Fin 2) (0 : Fin 8) (0 : Fin 128)) + O (ix3 (1 : Fin 2) (0 : Fin 8) (0 : Fin 128)))
          (Ideal.ofBits .f32 0x49000000#32) := by
  have hpos : (S1x1x1.rowMajor (ix3 (0 : Fin 1) (0 : Fin 1) (0 : Fin 1))).val = (S_.rowMajor i).val := by
    rw [Shape.rowMajor_val_three]
    show _ = (Shape.rowMajorPi _ i).val
    rw [Shape.rowMajorPi_zero]
    rfl
  have h0 : shapeCast S_ (extractStridedSlice S1x1x1 ![0, 0, 0] O slices_S2x8x128_S1x1x1_0_0_0)
        shapeCasts_S1x1x1_S_ i
      = O (ix3 (0 : Fin 2) (0 : Fin 8) (0 : Fin 128)) := by
    refine (shapeCast_apply _ _ i (ix3 (0 : Fin 1) (0 : Fin 1) (0 : Fin 1)) hpos).trans ?_
    exact extractStridedSlice_apply _ O _ _ _ (fun a => by fin_cases a <;> rfl)
  have h1 : shapeCast S_ (extractStridedSlice S1x1x1 ![1, 0, 0] O slices_S2x8x128_S1x1x1_1_0_0)
        shapeCasts_S1x1x1_S_ i
      = O (ix3 (1 : Fin 2) (0 : Fin 8) (0 : Fin 128)) := by
    refine (shapeCast_apply _ _ i (ix3 (0 : Fin 1) (0 : Fin 1) (0 : Fin 1)) hpos).trans ?_
    exact extractStridedSlice_apply _ O _ _ _ (fun a => by fin_cases a <;> rfl)
  show Ideal.div (_ + _) _ = _
  rw [h0, h1]
  rfl

/-- The same with O the region's output array as the run leaves it. -/
theorem tail_value_apply
    (dats : (p : Fin 1) → (c : Dev nD) → Dat τ (Elt Ideal) Unit ℕ (UR sig nD τ) ℕ (cfgs p) c)
    (c : Dev nD) (i : S_.Idx) :
    Host.divf (F := Ideal)
        (addf
          (shapeCast S_ (extractStridedSlice S1x1x1 ![0, 0, 0] (outArr dats c)
            slices_S2x8x128_S1x1x1_0_0_0) shapeCasts_S1x1x1_S_)
          (shapeCast S_ (extractStridedSlice S1x1x1 ![1, 0, 0] (outArr dats c)
            slices_S2x8x128_S1x1x1_1_0_0) shapeCasts_S1x1x1_S_))
        (constant S_ .f32 0x49000000#32) i
      = Ideal.div
          (outArr dats c (ix3 (0 : Fin 2) (0 : Fin 8) (0 : Fin 128))
            + outArr dats c (ix3 (1 : Fin 2) (0 : Fin 8) (0 : Fin 128)))
          (Ideal.ofBits .f32 0x49000000#32) :=
  host_tail_apply (outArr dats c) i

/-- Both steps together: on the extended reals the result buffer holds, at its one index, the sum of the output
array's entries (0, 0, 0) and (1, 0, 0) divided by 524288. -/
theorem tail_value_at (mI : (ℓ : Loc nD τ sig) → Buf (Elt Ideal) ℓ)
    (dats : (p : Fin 1) → (c : Dev nD) → Dat τ (Elt Ideal) Unit ℕ (UR sig nD τ) ℕ (cfgs p) c)
    (c : Dev nD) (i : S_.Idx) :
    Pipeline.afterTail₀ cfgs dats 0 (V0 mI) [hostOps1] c main_v8 i
      = Ideal.div
          (outArr dats c (ix3 (0 : Fin 2) (0 : Fin 8) (0 : Fin 128))
            + outArr dats c (ix3 (1 : Fin 2) (0 : Fin 8) (0 : Fin 128)))
          (Ideal.ofBits .f32 0x49000000#32) :=
  (congrFun (tail_value mI dats c) i).trans (tail_value_apply dats c i)

end Cert.KernelIdeal.Host

end
-- ==== Proof.KernelResult.lean ====
/-
  The kernel's result. After the run the `[2, 8, 128]` output array holds, in half `p`, the accumulator of sweep `p`
  after its last point: the sum of the eight block sums of that half of the positions. The host lines after the call
  add entry `(0, 0, 0)` and entry `(1, 0, 0)` and divide by `524288`. Block `t`'s lane `q` is flat position
  `32768 t + q` of the flattened arguments, so the two sweep totals together are the sum over all `524288` positions of
  the per-position value; for finite inputs that value is the reference's, position by position, and the reference sums
  it over the same positions (row-major flattening is a bijection of the positions): both programs end at
  `(∑ over positions of the per-position value) / 524288`.
-/
import proofs.«110418_j51625506898387_2_alg».proof.Proof.KernelRun
import proofs.«110418_j51625506898387_2_alg».proof.Proof.KernelFinal
import proofs.«110418_j51625506898387_2_alg».proof.Proof.BlockRead
import proofs.«110418_j51625506898387_2_alg».proof.Proof.KernelHost

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Run Cert.KernelIdeal.Block Cert.KernelIdeal.BlockRead
open Cert.KernelIdeal.Final Cert.KernelIdeal.Host Cert.CrpsSpec Cert.Bridge Cert.Flatten Cert.RefValue

variable (m : (ℓ : Loc nD τ sig) → Buf (Elt Ideal) ℓ) (ρ : Dev nD → PrngReg)

/-- Half `p` of the output array, at its entry `(p, 0, 0)`, is the accumulator after the last point of sweep `p`. -/
theorem out_value (c : Dev nD) (p : Fin 2) :
    (dats m 0 c).arrAt 2 cfg0.N (ix3 p (0 : Fin 8) (0 : Fin 128)) = accAt m c (8 * p.val + 7) := by
  have hN : cfg0.N = 16 := N_0
  have h : 8 * p.val + 7 < cfg0.N := by have := p.isLt; omega
  refine (final_out_apply m c p 0 0 h).trans ?_
  refine (out_eq_scratch m c _ h (by have := p.isLt; omega) (by have := p.isLt; omega) 0 0 0).trans ?_
  exact scratch_eq m c _ h _

/-- A grid point's contribution, over the flat positions of its block. -/
theorem contrib_pos (c : Dev nD) (n : ℕ) (hn : n < cfg0.N) :
    contrib m c n = ∑ q : Fin 32768, posVal (V m c main_v0) (V m c main_v1) (n * 32768 + q.val) :=
  (contrib_eq m c n hn).trans (blockSum_iblk m c ⟨n, hn⟩)

/-- The two sweep totals together, over the flat positions. -/
theorem sweeps (c : Dev nD) :
    accAt m c 7 + accAt m c 15
      = (∑ t ∈ Finset.range 8, ∑ q : Fin 32768, posVal (V m c main_v0) (V m c main_v1) (t * 32768 + q.val))
        + (∑ t ∈ Finset.range 8, ∑ q : Fin 32768, posVal (V m c main_v0) (V m c main_v1) ((8 + t) * 32768 + q.val)) := by
  have hN : cfg0.N = 16 := N_0
  rw [accAt_7, accAt_15]
  refine congrArg₂ (· + ·) (Finset.sum_congr rfl fun t ht => ?_) (Finset.sum_congr rfl fun t ht => ?_)
  · exact contrib_pos m c t (by have := Finset.mem_range.mp ht; omega)
  · exact contrib_pos m c (8 + t) (by have := Finset.mem_range.mp ht; omega)

/-- THE TWO RESULTS AGREE: for finite inputs the kernel's quotient is the reference's — the same sum over all positions of the
    per-position value, over the same divisor. -/
theorem result_eq (c : Dev nD)
    (fin0 : ∀ i, ∃ r : ℝ, m ((c : Thread nD τ).loc main_arg0) i = (r : EReal))
    (fin1 : ∀ j, ∃ r : ℝ, m ((c : Thread nD τ).loc main_arg1) j = (r : EReal)) :
    Ideal.div (outArr (dats m) c (ix3 (0 : Fin 2) (0 : Fin 8) (0 : Fin 128))
        + outArr (dats m) c (ix3 (1 : Fin 2) (0 : Fin 8) (0 : Fin 128))) (Ideal.ofBits .f32 0x49000000#32)
      = Ideal.div (0 + ∑ j : S5.Idx, refCol (colR (m ((c : Thread nD τ).loc main_arg0)) j) (m ((c : Thread nD τ).loc main_arg1) j))
          (Ideal.ofBits .f32 0x49000000#32) := by
  refine congrArg (fun z => Ideal.div z (Ideal.ofBits .f32 0x49000000#32)) ?_
  have e0 : outArr (dats m) c (ix3 (0 : Fin 2) (0 : Fin 8) (0 : Fin 128)) = accAt m c 7 := out_value m c 0
  have e1 : outArr (dats m) c (ix3 (1 : Fin 2) (0 : Fin 8) (0 : Fin 128)) = accAt m c 15 := out_value m c 1
  rw [e0, e1, sweeps, V_main_v0, V_main_v1]
  exact bridge _ _ fin0 fin1 _ _

/-- The kernel's run, read: its result is the sum of the two halves' entries over `524288`; the arguments are unchanged. -/
theorem run : θ_run defs (onTc (τ := τ) (main (F := Ideal))) ⟨m, fun _ => 0, ρ⟩ (fun r => ∀ c : Dev nD,
      r.2.mem ((c.tc : Thread nD τ).loc main_v8)
        = (fun _ => Ideal.div (outArr (dats m) c (ix3 (0 : Fin 2) (0 : Fin 8) (0 : Fin 128))
            + outArr (dats m) c (ix3 (1 : Fin 2) (0 : Fin 8) (0 : Fin 128))) (Ideal.ofBits .f32 0x49000000#32))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v8 (Pipeline.mem_restRefs_of main_v8 (by decide) (by decide))).trans
        (funext fun i => tail_value_at m (dats m) c i),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.FiniteInputs.lean ====
/-
  The precondition read back: when the predicate `finite_inputs` evaluates to true on the extended reals,
  every element of both arguments is a real number (neither `+∞` nor `-∞`).

  The predicate is `all (|x0| < +∞) ∧ all (|x1| < +∞)`: each `all` is a reduction by `and` from `true` over every
  axis, so its being `true` says every compared element is `true`; and `max x (-x) < ⊤` excludes `x = ⊤` and
  `x = ⊥`, at both of which `max x (-x) = ⊤`.
-/
import proofs.«110418_j51625506898387_2_alg».proof.Pre_finite_inputs
import Idealize.ShloMosaic.Lib.ReduceAll
import Idealize.ShloMosaic.PureOps.Ideal.Laws

noncomputable section

namespace Cert.FiniteInputs

open Idealize.ShloMosaic Cert.Pre_finite_inputs

/-- The shape of rank zero has exactly one index. -/
instance : Subsingleton S_.Idx := ⟨fun a b => funext fun d => d.elim0⟩

/-- The word `0x7F800000` is the f32 `+∞`: the top of the extended reals. -/
theorem ofBits_inf : Ideal.ofBits .f32 0x7F800000#32 = (⊤ : EReal) := by
  simp [Ideal.ofBits, Ideal.ieee]

/-- An extended real whose absolute value `max x (-x)` lies strictly below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One compared element: `|x| < +∞` evaluating to `true` makes `x` a real number. -/
theorem real_of_cmp (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  rw [Ideal.cmpf_def, Ideal.hostAbsf_def, Ideal.absf_def, Ideal.ofBits_def, ofBits_inf] at h
  refine real_of_abs_lt_top x ?_
  by_contra hn
  simp [Ideal.cmp, hn] at h

/-- If the predicate is true, every element of both arguments is a real number. -/
theorem finite_of_pre [Cert.Pre_finite_inputs.Facts] (x0 : FVec Ideal Cert.Pre_finite_inputs.S20x4x1x8x128x128 .f32)
    (x1 : FVec Ideal Cert.Pre_finite_inputs.S4x1x8x128x128 .f32)
    (h : Cert.Pre_finite_inputs.fn (F := Ideal) x0 x1 = fun _ => 1#1) :
    (∀ i, ∃ r : ℝ, x0 i = (r : EReal)) ∧ (∀ j, ∃ r : ℝ, x1 j = (r : EReal)) := by
  have h0 := congrFun h (fun d => d.elim0)
  dsimp only [Cert.Pre_finite_inputs.fn] at h0
  obtain ⟨ha, hb⟩ := IntOp.andi_eq_one.1 h0
  refine ⟨fun i => ?_, fun j => ?_⟩
  · have := Host.reduce_andi_all _ _ _ _ _ ha i
    exact real_of_cmp _ this
  · have := Host.reduce_andi_all _ _ _ _ _ hb j
    exact real_of_cmp _ this

end Cert.FiniteInputs

end
-- ==== Proof.lean ====
/-
  The proof of `Cert.Claim` for the ensemble score kernel: twenty forecasts and one observation at each of 524288 grid
  positions; per position the value `(∑ᵢ |xᵢ - y|) / 20 - (pair term) / 400`, the result the mean over the positions.

  The kernel sums `|xⱼ - xᵢ|` over the pairs `i < j` and divides by `400`; the reference sums `|xₐ - x_b|` over ALL ordered
  pairs, divides by `400` and halves. For finite inputs the two agree position by position: the full sum is twice the
  sum over `i < j` (the absolute value is symmetric, the diagonal vanishes). Finiteness is what the precondition
  gives, and it is used exactly there (on the extended reals `x - x` is not `0` at an infinity). Everything else is
  re-association of sums of extended reals, which needs no finiteness: the kernel adds the positions block by block
  (sixteen blocks of 32768 consecutive positions, two sweeps of eight, each sweep accumulated from zero), the reference
  all at once over the five-axis index, and row-major flattening matches the two enumerations.

  The three frames are the generated ones (the reference's from its generated run); the idealization rewrote nothing.
-/
import proofs.«110418_j51625506898387_2_alg».proof.Defs
import proofs.«110418_j51625506898387_2_alg».proof.Proof.Gen.Kernel.Frame
import proofs.«110418_j51625506898387_2_alg».proof.Proof.Gen.KernelIdeal.Frame
import proofs.«110418_j51625506898387_2_alg».proof.Proof.Gen.ReferenceIdeal.Read
import proofs.«110418_j51625506898387_2_alg».proof.Proof.Gen.Pre_finite_inputs
import proofs.«110418_j51625506898387_2_alg».proof.Proof.KernelResult
import proofs.«110418_j51625506898387_2_alg».proof.Proof.RefValue
import proofs.«110418_j51625506898387_2_alg».proof.Proof.FiniteInputs

noncomputable section

open scoped BigOperators
open Idealize.ShloMosaic Idealize.ShloMosaic.TcCoe Idealize.SL.Sem

namespace Cert.Proof

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the ideal values: nothing was rewritten. -/
theorem preserves : Cert.preserves_Kernel_KernelIdeal := trivial

/-- From memories agreeing on the two arguments, both programs end with the mean over the positions of the per-position
    value (in the reference's form): the kernel by `Result.run` and `Result.result_eq` (finite inputs from the
    precondition), the reference by its generated run read stage by stage (`RefValue.ref_value`). -/
theorem algebraic : Cert.algebraic_KernelIdeal_ReferenceIdeal := by
  intro m ρ m' ρ' hpre hagree
  have hfin := fun c => Cert.FiniteInputs.finite_of_pre _ _ (hpre c)
  refine ⟨fun c _ => Ideal.div (0 + ∑ j : Cert.Flatten.S5.Idx,
      Cert.CrpsSpec.refCol (Cert.RefValue.colR (m ((c.tc : Thread Cert.KernelIdeal.nD Cert.KernelIdeal.τ).loc Cert.KernelIdeal.main_arg0)) j)
        (m ((c.tc : Thread Cert.KernelIdeal.nD Cert.KernelIdeal.τ).loc Cert.KernelIdeal.main_arg1) j))
      (Ideal.ofBits .f32 0x49000000#32), ?_, ?_⟩
  · exact (θ_run Cert.KernelIdeal.defs _ _).mono
      (fun r h c => ⟨(h c).1.trans (funext fun _ => Cert.KernelIdeal.Result.result_eq m c (hfin c).1 (hfin c).2), (h c).2⟩)
      (Cert.KernelIdeal.Result.run m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v20_eq]
    funext i
    rw [Cert.RefValue.ref_value, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
